-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x8192x1024 .f32) (main_arg1 : FVec F S1024x3072 .f32) (main_arg2 : FVec F S3072 .f32) (main_arg3 : FVec F S1024x1024 .f32) (main_arg4 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x8192x1024 : Shape := ⟨3, ![4, 8192, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x1024 : Shape := ⟨2, ![1, 1024]⟩
abbrev S512x1024 : Shape := ⟨2, ![512, 1024]⟩
abbrev S512x2048 : Shape := ⟨2, ![512, 2048]⟩
abbrev S1x2048 : Shape := ⟨2, ![1, 2048]⟩

abbrev nBuf : Space → Nat
  | .hbm => 14
  | .vmem => 17
  | .smem => 0
  | _ => 0

abbrev bufTy : (tb : Table) → Fin (tcTables nBuf tb) → BufTy
  | .hbm, ⟨0, _⟩ => ⟨S4x8192x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S1024x2048, .bf16⟩
  | .hbm, ⟨7, _⟩ => ⟨S2048, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1024x1024, .bf16⟩
  | .hbm, ⟨12, _⟩ => ⟨S4x1x1024, .f32⟩
  | .hbm, ⟨13, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .bf16⟩
  | .local _ .vmem, ⟨10, _⟩ => ⟨S1024, .f32⟩
  | .local _ .vmem, ⟨11, _⟩ => ⟨S1x1x1024, .f32⟩
  | .local _ .vmem, ⟨12, _⟩ => ⟨S1x1x1024, .f32⟩
  | .local _ .vmem, ⟨13, _⟩ => ⟨S1024x1024, .bf16⟩
  | .local _ .vmem, ⟨14, _⟩ => ⟨S1024, .f32⟩
  | .local _ .vmem, ⟨15, _⟩ => ⟨S1x512x1024, .f32⟩
  | .local _ .vmem, ⟨16, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_13 : BitVec 32 := 0#32
  let v30 : BitVec 1 := Scalar.cmpi .ne v29 c0_i32_13
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  slices_S1024x3072_S1024x2048_0_1024 : S1024x3072.Slices ![0, 1024] S1024x2048
  bitsLt_bf16_f32 : FTy.bits .bf16 < FTy.bits .f32
  slices_S3072_S2048_1024 : S3072.Slices ![1024] S2048
  slices_S1024x3072_S1024x1024_0_0 : S1024x3072.Slices ![0, 0] S1024x1024
  slices_S3072_S1024_0 : S3072.Slices ![0] S1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  slices_S512x2048_o0_0_S512x1024 : S512x2048.Slices ![0, 0] S512x1024
  slices_S512x2048_o0_1024_S512x1024 : S512x2048.Slices ![0, 1024] S512x1024
  reduces_S512x1024_S1024 : S512x1024.Reduces [0] S1024
  shapeCasts_S1024_S1x1024 : S1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  broadcasts_S1x1024_S512x1024 : S1x1024.Broadcasts S512x1024
  shapeCasts_S512x1024_S1x512x1024 : S512x1024.ShapeCasts S1x512x1024
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x8192x1024.size a
  hwx0_0 : ∀ i : grid0.Coords, EltTy.bits .f32 = 32 ∨ (Rect.block (s := S4x8192x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x1024.size a
  hwx0_3 : ∀ i : grid0.Coords, EltTy.bits .f32 = 32 ∨ (Rect.block (s := S4x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x8192x1024.size a
  hwx1_0 : ∀ i : grid1.Coords, EltTy.bits .f32 = 32 ∨ (Rect.block (s := S4x8192x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S4x1x1024.size a
  hwx1_3 : ∀ i : grid1.Coords, EltTy.bits .f32 = 32 ∨ (Rect.block (s := S4x1x1024) S1x1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S4x8192x1024.size a
  hwx1_6 : ∀ i : grid1.Coords, EltTy.bits .f32 = 32 ∨ (Rect.block (s := S4x8192x1024) S1x512x1024.size (cc1_transform_6 i) (hinb1_6 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x8192x1024 : Shape := ⟨3, ![4, 8192, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x8192x3072 : Shape := ⟨3, ![4, 8192, 3072]⟩
abbrev S1x1x3072 : Shape := ⟨3, ![1, 1, 3072]⟩
abbrev S_ : Shape := ⟨0, ![]⟩
abbrev S4x1024 : Shape := ⟨2, ![4, 1024]⟩
abbrev S4x1x1024 : Shape := ⟨3, ![4, 1, 1024]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x8192x3072, .f32⟩
  | .hbm, ⟨6, _⟩ => ⟨S1x1x3072, .f32⟩
  | .hbm, ⟨7, _⟩ => ⟨S4x8192x3072, .f32⟩
  | .hbm, ⟨8, _⟩ => ⟨S4x8192x3072, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x1024, .f32⟩
  | .hbm, ⟨21, _⟩ => ⟨S_, .f32⟩
  | .hbm, ⟨22, _⟩ => ⟨S4x1024, .f32⟩
  | .hbm, ⟨23, _⟩ => ⟨S4x1024, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_call1_cst : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x8192x3072_0_1_2 : S1x1x3072.BroadcastsInDim S4x8192x3072 (![0, 1, 2] : Fin 3 → Fin S4x8192x3072.rank)
  slices_S4x8192x3072_S4x8192x1024_0_0_0 : S4x8192x3072.Slices ![0, 0, 0] S4x8192x1024
  slices_S4x8192x3072_S4x8192x1024_0_0_1024 : S4x8192x3072.Slices ![0, 0, 1024] S4x8192x1024
  slices_S4x8192x3072_S4x8192x1024_0_0_2048 : S4x8192x3072.Slices ![0, 0, 2048] S4x8192x1024
  bcast_S_S4x8192x1024 : S_.BroadcastsInDim S4x8192x1024 (![] : Fin 0 → Fin S4x8192x1024.rank)
  reducesTo_S4x8192x1024_S4x1024_d1 : S4x8192x1024.ReducesTo [1] S4x1024
  h_S_ : 0 < S_.numel
  bcast_S_S4x1024 : S_.BroadcastsInDim S4x1024 (![] : Fin 0 → Fin S4x1024.rank)
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  dot_S4x8192x1024_S1024x3072_S4x8192x3072_2_0_01_1_n_n_wf : DotDims.WF S4x8192x1024 S1024x3072 S4x8192x3072 [2] [0] [0, 1] [1] [] []
  dot_S4x8192x1024_S1024x1024_S4x8192x1024_2_0_01_1_n_n_wf : DotDims.WF S4x8192x1024 S1024x1024 S4x8192x1024 [2] [0] [0, 1] [1] [] []

variable [Facts₀]

def dot_S4x8192x1024_S1024x3072_S4x8192x3072_2_0_01_1_n_n : DotDims S4x8192x1024 S1024x3072 S4x8192x3072 where
  lhsContracting := [2]
  rhsContracting := [0]
  lhsNonContracting := [0, 1]
  rhsNonContracting := [1]
  lhsBatch := []
  rhsBatch := []
  wf := dot_S4x8192x1024_S1024x3072_S4x8192x3072_2_0_01_1_n_n_wf
def dot_S4x8192x1024_S1024x1024_S4x8192x1024_2_0_01_1_n_n : DotDims S4x8192x1024 S1024x1024 S4x8192x1024 where
  lhsContracting := [2]
  rhsContracting := [0]
  lhsNonContracting := [0, 1]
  rhsNonContracting := [1]
  lhsBatch := []
  rhsBatch := []
  wf := dot_S4x8192x1024_S1024x1024_S4x8192x1024_2_0_01_1_n_n_wf

class Facts : Prop extends Facts₀ where

variable [Facts]
-- ==== Proof.K.Shared.lean ====
/-
  What the two pallas_calls of the program share in their frame proofs, at any float instance.
  The first call (a grid of 4 batches by 16 sequence tiles) keeps a [1,1024] accumulator in a scratch buffer
  across the 16 tiles of a batch: it is zeroed at tile 0, added to at every tile, and at tile 15 half of it plus
  one half is stored into the batch's output row. So a grid point is in one of three cases, decided by its
  position modulo 16: first tile (0), last tile (15), or in between. Here: a window's block at a point, read
  off the array as the call finds it; the closed forms of the two conditions; where the output window is idle;
  the names of the staging memrefs and of the scratch.
-/
import proofs.«176626_j47467978556114_2_alg».proof.Proof.Gen.Kernel.Launch
import proofs.«176626_j47467978556114_2_alg».proof.Proof.Gen.Kernel.Skeleton
import proofs.«176626_j47467978556114_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the buffer contents when a call is entered: every statement about a call is made at this parameter
variable (V : (c : Dev nD) → (b : Ref sig .tc) → Buf (Elt F) ((c : Thread nD τ).loc b))

/-- Window `w`'s block of the first call at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second call at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the point fetched it or an
    earlier one did (the block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the point fetched it or an
    earlier one did (the block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first call's two conditions, in closed form over the grid -/

/-- "This is the batch's first tile": the body's first conditional, as the skeleton computes it from the grid coordinates. -/
abbrev cond0_0 (i : grid0.Coords) : Prop := (Scalar.cmpi .ne (Scalar.extui (Scalar.cmpi .eq (BitVec.ofNat 32 (i 1).val) 0#32)) 0#32) = 1#1
/-- It holds at the points that are 0 modulo 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the batch's last tile": the body's second conditional. -/
abbrev cond0_1 (i : grid0.Coords) : Prop := k0_cond2 i = 1#1
/-- It holds at the points that are 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile the body stores nothing into the output row, and the pipeline does not write it back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile the body stores the output row. -/
theorem liveAt0_3 : ∀ t : Fin cfg0.N, cond0_1 (grid0.coords t) → cfg0.idle 3 (grid0.coords t) = false := by decide +kernel

/-! ## The first call's memrefs -/

/-- One staging buffer of the output window, through which its contents are stated (the choice does not matter). -/
abbrev VO0_3 : View sig .tc .vmem S1x1x1024 .f32 := (Memref.whole cc0_stg3_0 : Memref sig .tc .vmem S1x1x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1x1024 .f32 := Memref.whole cc0_scratch0
abbrev VS0_0 : View sig .tc .vmem S1x1024 .f32 := scM0_0.view

/-- The scoped buffers the first call does not use (the second call's staging buffers), each at some contents. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant of the first call, with the accumulator as a memref owned at some contents. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA; rw [scopedRest0_eq]; simp only [scM0_0, owns_whole]; try rfl

end Cert.Kernel.Fr

end
-- ==== Proof.K.RunA.lean ====
/-
  The body of the first call run once, symbolically, in the case "first tile of a batch: the accumulator is zeroed, then the tile's sum is added; the output row is not touched".
  The run is a triple on whole staging memrefs; the lists of pieces the accumulator and the output row end with are
  found by the symbolic run itself (they are the witnesses of the dependent pair).
-/
import proofs.«176626_j47467978556114_2_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave, with the proof that the body runs to its continuation holding the inputs as
    they were and each written buffer with its pieces written. -/
noncomputable def kernelRun0_A (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) :
    Σ' (L3 : List (View.Piece (Elt F) S1x1x1024 .f32)), { LS0 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA i arg2 harg2 arg3 harg3 arg4 harg4 arg5 harg5 arg6 harg6) K } := by
  refine ⟨[], ?_, fun xi3 E K => ?run⟩
  case run =>
    simp only [cc0__kernelA_eq_skeleton]; unfold cc0__kernelA_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.RunB.lean ====
/-
  The body of the first call run once, symbolically, in the case "a tile that is neither first nor last: the tile's sum is added to the accumulator as the tile before left it; the output row is not touched".
  The run is a triple on whole staging memrefs; the lists of pieces the accumulator and the output row end with are
  found by the symbolic run itself (they are the witnesses of the dependent pair).
-/
import proofs.«176626_j47467978556114_2_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave, with the proof that the body runs to its continuation holding the inputs as
    they were and each written buffer with its pieces written. -/
noncomputable def kernelRun0_B (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) :
    Σ' (L3 : List (View.Piece (Elt F) S1x1x1024 .f32)), { LS0 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA i arg2 harg2 arg3 harg3 arg4 harg4 arg5 harg5 arg6 harg6) K } := by
  refine ⟨[], ?_, fun xi3 E K => ?run⟩
  case run =>
    simp only [cc0__kernelA_eq_skeleton]; unfold cc0__kernelA_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.RunC.lean ====
/-
  The body of the first call run once, symbolically, in the case "last tile of a batch: the tile's sum is added to the accumulator, and half the accumulator plus one half is stored into the output row".
  The run is a triple on whole staging memrefs; the lists of pieces the accumulator and the output row end with are
  found by the symbolic run itself (they are the witnesses of the dependent pair).
-/
import proofs.«176626_j47467978556114_2_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave, with the proof that the body runs to its continuation holding the inputs as
    they were and each written buffer with its pieces written. -/
noncomputable def kernelRun0_C (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) :
    Σ' (L3 : List (View.Piece (Elt F) S1x1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA i arg2 harg2 arg3 harg3 arg4 harg4 arg5 harg5 arg6 harg6) K } := by
  refine ⟨?_, ?_, fun E K => ?run⟩
  case run =>
    simp only [cc0__kernelA_eq_skeleton]; unfold cc0__kernelA_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Region0.lean ====
/-
  The first pallas_call, at any float instance and at any contents of the buffers when it is entered.
  What the accumulator and the output row hold after each grid point is defined by recursion on the point: the
  case the point is in (first tile, last tile, in between — decided by the point modulo 16), run on the point's
  input blocks and, off the first tile, on what the point before left in the accumulator. The region's invariant
  carries the accumulator at exactly that value from one point to the next. With these the proof data of the
  pipeline and the body obligation at every point.
-/
import proofs.«176626_j47467978556114_2_alg».proof.Proof.K.RunA
import proofs.«176626_j47467978556114_2_alg».proof.Proof.K.RunB
import proofs.«176626_j47467978556114_2_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output row's buffer in case A (nothing is stored into it: a placeholder nothing consults, the window being idle and not written back at these points). -/
def out0_A_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) : Vec F S1x1x1024 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) (y : S1x1024.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x1024.size (by sl_kernel_rfl) y

/-- What case A leaves in the accumulator: its pieces read back. -/
def sout0_A_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) : Vec F S1x1024 .f32 :=
  VS0_0.read (Elt F) (VS0_0.writes (Elt F) VS0_0.junk (kernelRun0_A c i arg2 harg2 arg3 harg3 arg4 harg4 arg5 harg5 arg6 harg6 hc0 hc1 x0 x1 x2).2.1)

/-- The output row's buffer in case B (nothing is stored into it: a placeholder nothing consults, the window being idle and not written back at these points). -/
def out0_B_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) : Vec F S1x1x1024 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) (y : S1x1024.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x1024.size (by sl_kernel_rfl) y

/-- What case B leaves in the accumulator: its pieces read back. -/
def sout0_B_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) : Vec F S1x1024 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The output row's buffer in case C: its pieces read back. -/
def out0_C_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) : Vec F S1x1x1024 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's stores into the accumulator cover it. -/
theorem scover0_C_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) (y : S1x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x1024.size (by sl_kernel_rfl) y

/-- What case C leaves in the accumulator: its pieces read back. -/
def sout0_C_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) : Vec F S1x1024 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the output row covers it. -/
theorem cover0_C_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) (y : S1x1x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1x1024.size (by sl_kernel_rfl) y

section Data
variable (V : (c : Dev nD) → (b : Ref sig .tc) → Buf (Elt F) ((c : Thread nD τ).loc b))

/-! ## What the output row and the accumulator hold after each point -/

/-- The pair (output row's staging buffer, accumulator) after the body at position `n`: the case the closed forms
    select at `n`, run at the point's memrefs and input blocks and, off the first tile, on the accumulator the point
    before left. -/
def outsAt0 (c : Dev nD) : (n : ℕ) → n < cfg0.N → Vec F S1x1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer the pipeline does not stage
    at anything and the generator register at some state; afterwards the same with the accumulator at what the point
    before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

/-- The proof data of the first pipeline on core `c`: the arrays as the call finds them; after the body at point
    `t` each input's buffer at its block and the output row's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the accumulator at what the point before left (at anything at the very first point) and
    takes it back at this point's value (its stores cover it); the output row is handed back untouched off the last
    tile and at its stored value at the last tile; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end Data

end Cert.Kernel.Fr

end
-- ==== Proof.K.Region1.lean ====
/-
  The second pallas_call, at any float instance and at any contents of the buffers when it is entered.
  Its body loads its six input blocks whole (a [512,1024] tile of X, the query weights and bias, the batch's gate
  row, the output weights and bias), computes, and stores the [512,1024] output tile whole; nothing is kept
  between grid points. Here: the body run once symbolically, what the output tile's staging buffer holds after it,
  the proof data of the pipeline (every input window at its block, the output at that value), and the body
  obligation at every grid point.
-/
import proofs.«176626_j47467978556114_2_alg».proof.Proof.K.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's one store leaves in the output tile's buffer, with the proof that on whole staging memrefs —
    the inputs at their contents, the output at anything — the body runs to its continuation holding the inputs as they
    were and the output with those pieces written (the pieces are found by the symbolic run). -/
noncomputable def kernelRun1 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) :
    { L6 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__kernelB i arg2 harg2 arg3 harg3 arg4 harg4 arg5 harg5 arg6 harg6 arg7 harg7 arg8 harg8) K } := by
  refine ⟨?_, fun E K => ?run⟩
  case run =>
    simp only [cc1__kernelB_eq_skeleton]; unfold cc1__kernelB_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- One staging buffer of the output window, through which its contents are stated (the choice does not matter). -/
abbrev VO1_6 : View sig .tc .vmem S1x512x1024 .f32 := (Memref.whole cc1_stg6_0 : Memref sig .tc .vmem S1x512x1024 .f32).view

/-- The store covers the output tile's buffer. -/
theorem cover1_6 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) (y : S1x512x1024.Idx) :
    ∃ pc ∈ (kernelRun1 c i arg2 harg2 arg3 harg3 arg4 harg4 arg5 harg5 arg6 harg6 arg7 harg7 arg8 harg8 x0 x1 x2 x3 x4 x5).1, y ∈ pc.1.set :=
  View.cover_of_tiledL (kernelRun1 c i arg2 harg2 arg3 harg3 arg4 harg4 arg5 harg5 arg6 harg6 arg7 harg7 arg8 harg8 x0 x1 x2 x3 x4 x5).1 S1x512x1024.size (by sl_kernel_rfl) y

/-- What the body leaves in the output tile's staging buffer: its pieces read back. -/
def out1_6 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) : Vec F S1x512x1024 .f32 :=
  VO1_6.read (Elt F) (VO1_6.writes (Elt F) VO1_6.junk (kernelRun1 c i arg2 harg2 arg3 harg3 arg4 harg4 arg5 harg5 arg6 harg6 arg7 harg7 arg8 harg8 x0 x1 x2 x3 x4 x5).1)

section Data
variable (V : (c : Dev nD) → (b : Ref sig .tc) → Buf (Elt F) ((c : Thread nD τ).loc b))

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)

/-- The output tile after the body at point `t`, from the six input blocks at `t`. -/
def outAt1 (c : Dev nD) (t : Fin cfg1.N) : Vec F S1x512x1024 .f32 :=
  out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t) (iblk1 V c 5 t)

/-- The proof data of the second pipeline on core `c`: the arrays as the call finds them; after the body at point
    `t` each input's buffer at its block and the output's at `outAt1`; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' memrefs hold their blocks, so the run applies; the invariant and the core's
    dues pass through unread; the output's buffer ends at its pieces read back (they cover it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outAt1 out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.Kernel.Fr

end
-- ==== Proof.K.RunMain.lean ====
/-
  The whole program, at any float instance: seven host operations (slices of the projection weights and bias,
  changes of float format), then the two pallas_calls, one after the other.
  The contents of every buffer at each boundary are a fold from the launch memory: after the host operations;
  after the first call (its arrays at what its write-backs leave, everything else as entered); after the second
  call likewise. Each call enters as a region whose thread state is "every unscoped buffer at the boundary's
  contents, the generator register at some state, nothing owed". The run ends with every unscoped buffer at the
  last boundary's contents; the five argument arrays walk back through the fold to the launch memory.
-/
import proofs.«176626_j47467978556114_2_alg».proof.Proof.K.Region0
import proofs.«176626_j47467978556114_2_alg».proof.Proof.K.Region1
import proofs.«176626_j47467978556114_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, and after the host operations (the first call's entry). -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second call's exit (the end of the program). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation and no call writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = m ((c : Thread nD τ).loc main_arg0) := (Gen.V1_of m c main_arg0 (by decide)).trans rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (Gen.V1_of m c main_arg2 (by decide)).trans rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (Gen.V1_of m c main_arg3 (by decide)).trans rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 5).trans (((dat1 (V2 m) c).arrAt_in 5 rfl _).trans (A_eq1 (V2 m) c 5))
    _ = W1 m c (Proc.devRef .tc main_arg4) := W2_of_ne m c main_arg4 (by decide)
    _ = m ((c : Thread nD τ).loc main_arg4) := (Gen.V1_of m c main_arg4 (by decide)).trans rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_main m ρ)

end Cert.Kernel.Fr

end
-- ==== Proof.KI.Shared.lean ====
/-
  What the two pallas_calls of the program share in their frame proofs, at any float instance.
  The first call (a grid of 4 batches by 16 sequence tiles) keeps a [1,1024] accumulator in a scratch buffer
  across the 16 tiles of a batch: it is zeroed at tile 0, added to at every tile, and at tile 15 half of it plus
  one half is stored into the batch's output row. So a grid point is in one of three cases, decided by its
  position modulo 16: first tile (0), last tile (15), or in between. Here: a window's block at a point, read
  off the array as the call finds it; the closed forms of the two conditions; where the output window is idle;
  the names of the staging memrefs and of the scratch.
-/
import proofs.«176626_j47467978556114_2_alg».proof.Proof.Gen.KernelIdeal.Launch
import proofs.«176626_j47467978556114_2_alg».proof.Proof.Gen.KernelIdeal.Skeleton
import proofs.«176626_j47467978556114_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the buffer contents when a call is entered: every statement about a call is made at this parameter
variable (V : (c : Dev nD) → (b : Ref sig .tc) → Buf (Elt F) ((c : Thread nD τ).loc b))

/-- Window `w`'s block of the first call at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of the second call at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or an
    earlier one did (the block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the point fetched it or an
    earlier one did (the block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the point fetched it or an
    earlier one did (the block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The first call's two conditions, in closed form over the grid -/

/-- "This is the batch's first tile": the body's first conditional, as the skeleton computes it from the grid coordinates. -/
abbrev cond0_0 (i : grid0.Coords) : Prop := (Scalar.cmpi .ne (Scalar.extui (Scalar.cmpi .eq (BitVec.ofNat 32 (i 1).val) 0#32)) 0#32) = 1#1
/-- It holds at the points that are 0 modulo 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the batch's last tile": the body's second conditional. -/
abbrev cond0_1 (i : grid0.Coords) : Prop := k0_cond2 i = 1#1
/-- It holds at the points that are 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the first call's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile the body stores nothing into the output row, and the pipeline does not write it back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last tile the body stores the output row. -/
theorem liveAt0_3 : ∀ t : Fin cfg0.N, cond0_1 (grid0.coords t) → cfg0.idle 3 (grid0.coords t) = false := by decide +kernel

/-! ## The first call's memrefs -/

/-- One staging buffer of the output window, through which its contents are stated (the choice does not matter). -/
abbrev VO0_3 : View sig .tc .vmem S1x1x1024 .f32 := (Memref.whole cc0_stg3_0 : Memref sig .tc .vmem S1x1x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1x1024 .f32 := Memref.whole cc0_scratch0
abbrev VS0_0 : View sig .tc .vmem S1x1024 .f32 := scM0_0.view

/-- The scoped buffers the first call does not use (the second call's staging buffers), each at some contents. -/
abbrev restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class invariant of the first call, with the accumulator as a memref owned at some contents. -/
theorem PhiA0_eq (c : Dev nD) :
    (Pipeline.ΦA spec0 c : sProp 𝕄)
      = iprop(iprop((∃ d, owns (c : Thread nD τ) scM0_0 fullShare d) ∗ restS0 c) ∗ (∃ r, prngReg c r)) := by
  unfold Pipeline.ΦA; rw [scopedRest0_eq]; simp only [scM0_0, owns_whole]; try rfl

end Cert.KernelIdeal.Fr

end
-- ==== Proof.KI.RunA.lean ====
/-
  The body of the first call run once, symbolically, in the case "first tile of a batch: the accumulator is zeroed, then the tile's sum is added; the output row is not touched".
  The run is a triple on whole staging memrefs; the lists of pieces the accumulator and the output row end with are
  found by the symbolic run itself (they are the witnesses of the dependent pair).
-/
import proofs.«176626_j47467978556114_2_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave, with the proof that the body runs to its continuation holding the inputs as
    they were and each written buffer with its pieces written. -/
noncomputable def kernelRun0_A (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) :
    Σ' (L3 : List (View.Piece (Elt F) S1x1x1024 .f32)), { LS0 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA i arg2 harg2 arg3 harg3 arg4 harg4 arg5 harg5 arg6 harg6) K } := by
  refine ⟨[], ?_, fun xi3 E K => ?run⟩
  case run =>
    simp only [cc0__kernelA_eq_skeleton]; unfold cc0__kernelA_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunB.lean ====
/-
  The body of the first call run once, symbolically, in the case "a tile that is neither first nor last: the tile's sum is added to the accumulator as the tile before left it; the output row is not touched".
  The run is a triple on whole staging memrefs; the lists of pieces the accumulator and the output row end with are
  found by the symbolic run itself (they are the witnesses of the dependent pair).
-/
import proofs.«176626_j47467978556114_2_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave, with the proof that the body runs to its continuation holding the inputs as
    they were and each written buffer with its pieces written. -/
noncomputable def kernelRun0_B (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) :
    Σ' (L3 : List (View.Piece (Elt F) S1x1x1024 .f32)), { LS0 : List (View.Piece (Elt F) S1x1024 .f32) //
      ∀ (xi3 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA i arg2 harg2 arg3 harg3 arg4 harg4 arg5 harg5 arg6 harg6) K } := by
  refine ⟨[], ?_, fun xi3 E K => ?run⟩
  case run =>
    simp only [cc0__kernelA_eq_skeleton]; unfold cc0__kernelA_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.RunC.lean ====
/-
  The body of the first call run once, symbolically, in the case "last tile of a batch: the tile's sum is added to the accumulator, and half the accumulator plus one half is stored into the output row".
  The run is a triple on whole staging memrefs; the lists of pieces the accumulator and the output row end with are
  found by the symbolic run itself (they are the witnesses of the dependent pair).
-/
import proofs.«176626_j47467978556114_2_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave, with the proof that the body runs to its continuation holding the inputs as
    they were and each written buffer with its pieces written. -/
noncomputable def kernelRun0_C (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) :
    Σ' (L3 : List (View.Piece (Elt F) S1x1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kernelA i arg2 harg2 arg3 harg3 arg4 harg4 arg5 harg5 arg6 harg6) K } := by
  refine ⟨?_, ?_, fun E K => ?run⟩
  case run =>
    simp only [cc0__kernelA_eq_skeleton]; unfold cc0__kernelA_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Region0.lean ====
/-
  The first pallas_call, at any float instance and at any contents of the buffers when it is entered.
  What the accumulator and the output row hold after each grid point is defined by recursion on the point: the
  case the point is in (first tile, last tile, in between — decided by the point modulo 16), run on the point's
  input blocks and, off the first tile, on what the point before left in the accumulator. The region's invariant
  carries the accumulator at exactly that value from one point to the next. With these the proof data of the
  pipeline and the body obligation at every point.
-/
import proofs.«176626_j47467978556114_2_alg».proof.Proof.KI.RunA
import proofs.«176626_j47467978556114_2_alg».proof.Proof.KI.RunB
import proofs.«176626_j47467978556114_2_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output row's buffer in case A (nothing is stored into it: a placeholder nothing consults, the window being idle and not written back at these points). -/
def out0_A_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) : Vec F S1x1x1024 .f32 :=
  VO0_3.read (Elt F) (VO0_3.writes (Elt F) VO0_3.junk (kernelRun0_A c i arg2 harg2 arg3 harg3 arg4 harg4 arg5 harg5 arg6 harg6 hc0 hc1 x0 x1 x2).1)

/-- Case A's stores into the accumulator cover it. -/
theorem scover0_A_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) (y : S1x1024.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1x1024.size (by sl_kernel_rfl) y

/-- What case A leaves in the accumulator: its pieces read back. -/
def sout0_A_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) : Vec F S1x1024 .f32 :=
  VS0_0.read (Elt F) (VS0_0.writes (Elt F) VS0_0.junk (kernelRun0_A c i arg2 harg2 arg3 harg3 arg4 harg4 arg5 harg5 arg6 harg6 hc0 hc1 x0 x1 x2).2.1)

/-- The output row's buffer in case B (nothing is stored into it: a placeholder nothing consults, the window being idle and not written back at these points). -/
def out0_B_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) : Vec F S1x1x1024 .f32 :=
  VO0_3.read (Elt F) (VO0_3.writes (Elt F) VO0_3.junk (kernelRun0_B c i arg2 harg2 arg3 harg3 arg4 harg4 arg5 harg5 arg6 harg6 hc0 hc1 x0 x1 x2 xs0).1)

/-- Case B's stores into the accumulator cover it. -/
theorem scover0_B_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) (y : S1x1024.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S1x1024.size (by sl_kernel_rfl) y

/-- What case B leaves in the accumulator: its pieces read back. -/
def sout0_B_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) : Vec F S1x1024 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The output row's buffer in case C: its pieces read back. -/
def out0_C_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) : Vec F S1x1x1024 .f32 :=
  VO0_3.read (Elt F) (VO0_3.writes (Elt F) VO0_3.junk (kernelRun0_C c i arg2 harg2 arg3 harg3 arg4 harg4 arg5 harg5 arg6 harg6 hc0 hc1 x0 x1 x2 xs0).1)

/-- Case C's stores into the accumulator cover it. -/
theorem scover0_C_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) (y : S1x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1x1024.size (by sl_kernel_rfl) y

/-- What case C leaves in the accumulator: its pieces read back. -/
def sout0_C_0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) : Vec F S1x1024 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- Case C's store into the output row covers it. -/
theorem cover0_C_3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) (y : S1x1x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1x1024.size (by sl_kernel_rfl) y

section Data
variable (V : (c : Dev nD) → (b : Ref sig .tc) → Buf (Elt F) ((c : Thread nD τ).loc b))

/-! ## What the output row and the accumulator hold after each point -/

/-- The pair (output row's staging buffer, accumulator) after the body at position `n`: the case the closed forms
    select at `n`, run at the point's memrefs and input blocks and, off the first tile, on the accumulator the point
    before left. -/
def outsAt0 (c : Dev nD) : (n : ℕ) → n < cfg0.N → Vec F S1x1x1024 .f32 × Vec F S1x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 16 = 0 then
      if h1 : (n + 1) % 16 = 15 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scoped buffer the pipeline does not stage
    at anything and the generator register at some state; afterwards the same with the accumulator at what the point
    before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ restS0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ restS0 c) ∗ (∃ r, prngReg c r)) := by
  cases n with
  | zero => exact absurd rfl hz
  | succ n => rfl

/-! ## The pipeline's proof data -/

/-- The proof data of the first pipeline on core `c`: the arrays as the call finds them; after the body at point
    `t` each input's buffer at its block and the output row's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the accumulator at what the point before left (at anything at the very first point) and
    takes it back at this point's value (its stores cover it); the output row is handed back untouched off the last
    tile and at its stored value at the last tile; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 16 = 15
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's value is forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, HR⟩, Hg⟩
  isplitl [HS0 HR]
  · isplitl [HS0]
    · iexists _; iexact HS0
    iexact HR
  iexact Hg

end Data

end Cert.KernelIdeal.Fr

end
-- ==== Proof.KI.Region1.lean ====
/-
  The second pallas_call, at any float instance and at any contents of the buffers when it is entered.
  Its body loads its six input blocks whole (a [512,1024] tile of X, the query weights and bias, the batch's gate
  row, the output weights and bias), computes, and stores the [512,1024] output tile whole; nothing is kept
  between grid points. Here: the body run once symbolically, what the output tile's staging buffer holds after it,
  the proof data of the pipeline (every input window at its block, the output at that value), and the body
  obligation at every grid point.
-/
import proofs.«176626_j47467978556114_2_alg».proof.Proof.KI.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's one store leaves in the output tile's buffer, with the proof that on whole staging memrefs —
    the inputs at their contents, the output at anything — the body runs to its continuation holding the inputs as they
    were and the output with those pieces written (the pieces are found by the symbolic run). -/
noncomputable def kernelRun1 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) :
    { L6 : List (View.Piece (Elt F) S1x512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1__kernelB i arg2 harg2 arg3 harg3 arg4 harg4 arg5 harg5 arg6 harg6 arg7 harg7 arg8 harg8) K } := by
  refine ⟨?_, fun E K => ?run⟩
  case run =>
    simp only [cc1__kernelB_eq_skeleton]; unfold cc1__kernelB_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- One staging buffer of the output window, through which its contents are stated (the choice does not matter). -/
abbrev VO1_6 : View sig .tc .vmem S1x512x1024 .f32 := (Memref.whole cc1_stg6_0 : Memref sig .tc .vmem S1x512x1024 .f32).view

/-- The store covers the output tile's buffer. -/
theorem cover1_6 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) (y : S1x512x1024.Idx) :
    ∃ pc ∈ (kernelRun1 c i arg2 harg2 arg3 harg3 arg4 harg4 arg5 harg5 arg6 harg6 arg7 harg7 arg8 harg8 x0 x1 x2 x3 x4 x5).1, y ∈ pc.1.set :=
  View.cover_of_tiledL (kernelRun1 c i arg2 harg2 arg3 harg3 arg4 harg4 arg5 harg5 arg6 harg6 arg7 harg7 arg8 harg8 x0 x1 x2 x3 x4 x5).1 S1x512x1024.size (by sl_kernel_rfl) y

/-- What the body leaves in the output tile's staging buffer: its pieces read back. -/
def out1_6 (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) : Vec F S1x512x1024 .f32 :=
  VO1_6.read (Elt F) (VO1_6.writes (Elt F) VO1_6.junk (kernelRun1 c i arg2 harg2 arg3 harg3 arg4 harg4 arg5 harg5 arg6 harg6 arg7 harg7 arg8 harg8 x0 x1 x2 x3 x4 x5).1)

section Data
variable (V : (c : Dev nD) → (b : Ref sig .tc) → Buf (Elt F) ((c : Thread nD τ).loc b))

abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x1024 .f32 := win1_6.stage (cfg1.slots t 6)
abbrev hs1_6 (t : Fin cfg1.N) : (ms1_6 t).IsWhole := hstage1_6 ((cfg1.slots t 6).cast nbuf1_6)

/-- The output tile after the body at point `t`, from the six input blocks at `t`. -/
def outAt1 (c : Dev nD) (t : Fin cfg1.N) : Vec F S1x512x1024 .f32 :=
  out1_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t) (iblk1 V c 5 t)

/-- The proof data of the second pipeline on core `c`: the arrays as the call finds them; after the body at point
    `t` each input's buffer at its block and the output's at `outAt1`; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' memrefs hold their blocks, so the run applies; the invariant and the core's
    dues pass through unread; the output's buffer ends at its pieces read back (they cover it). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outAt1 out1_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_6 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Data

end Cert.KernelIdeal.Fr

end
-- ==== Proof.KI.RunMain.lean ====
/-
  The whole program, at any float instance: seven host operations (slices of the projection weights and bias,
  changes of float format), then the two pallas_calls, one after the other.
  The contents of every buffer at each boundary are a fold from the launch memory: after the host operations;
  after the first call (its arrays at what its write-backs leave, everything else as entered); after the second
  call likewise. Each call enters as a region whose thread state is "every unscoped buffer at the boundary's
  contents, the generator register at some state, nothing owed". The run ends with every unscoped buffer at the
  last boundary's contents; the five argument arrays walk back through the fold to the launch memory.
-/
import proofs.«176626_j47467978556114_2_alg».proof.Proof.KI.Region0
import proofs.«176626_j47467978556114_2_alg».proof.Proof.KI.Region1
import proofs.«176626_j47467978556114_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, and after the host operations (the first call's entry). -/
abbrev W0 : Dev nD → Valuation τ sig (Elt F) := fun c => Gen.V0 m c
abbrev W1 : Dev nD → Valuation τ sig (Elt F) := fun c => Gen.V1 m c
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second call's exit (the end of the program). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no host operation and no call writes one -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = m ((c : Thread nD τ).loc main_arg0) := (Gen.V1_of m c main_arg0 (by decide)).trans rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := (Gen.V1_of m c main_arg1 (by decide)).trans rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := (Gen.V1_of m c main_arg2 (by decide)).trans rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := (Gen.V1_of m c main_arg3 (by decide)).trans rfl

theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 5).trans (((dat1 (V2 m) c).arrAt_in 5 rfl _).trans (A_eq1 (V2 m) c 5))
    _ = W1 m c (Proc.devRef .tc main_arg4) := W2_of_ne m c main_arg4 (by decide)
    _ = m ((c : Thread nD τ).loc main_arg4) := (Gen.V1_of m c main_arg4 (by decide)).trans rfl

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_main m ρ)

end Cert.KernelIdeal.Fr

end
-- ==== Proof.Spec.lean ====
/-
  The function both programs compute, on the extended reals, entry by entry.

  For a batch b, a position s and a column e of the 3·1024 projected columns,
      proj(b, s, e) = Σ_d X(b, s, d) · Wi(d, e) + bi(e);
  columns 0..1023 are the queries, 1024..2047 the keys, 2048..3071 the values.  The gate of batch b
  at column e is
      gate(b, e) = ½ · Σ_s max(key(b, s, e), 0) · max(value(b, s, e), 0) + ½,
  and the result is
      out(b, s, q) = (Σ_e (gate(b, e) · query(b, s, e)) · Wo(e, q) + bo(q)) + X(b, s, q).
  The constant ½ is kept as the word 0x3F000000 of both programs; it is never evaluated.
-/
import Idealize.ShloMosaic.PureOps.Ideal
import Idealize.ShloMosaic.Lib.ValueIdx

noncomputable section

namespace Cert.Spec

open Idealize.ShloMosaic Idealize.ShloMosaic.ValueIdx

/-- The shapes of the five argument arrays, as literals. -/
abbrev SX : Shape := ⟨3, ![4, 8192, 1024]⟩
abbrev SWi : Shape := ⟨2, ![1024, 3072]⟩
abbrev Sbi : Shape := ⟨1, ![3072]⟩
abbrev SWo : Shape := ⟨2, ![1024, 1024]⟩
abbrev Sbo : Shape := ⟨1, ![1024]⟩

/-- Column e of the query third, the key third and the value third of the 3072 projected columns. -/
def qcol (e : Fin 1024) : Fin 3072 := ⟨e.val, by have := e.isLt; omega⟩
def kcol (e : Fin 1024) : Fin 3072 := ⟨1024 + e.val, by have := e.isLt; omega⟩
def vcol (e : Fin 1024) : Fin 3072 := ⟨2048 + e.val, by have := e.isLt; omega⟩

/-- The word of one half. -/
abbrev half : EReal := Ideal.ofBits .f32 0x3F000000#32

variable (X : SX.Idx → EReal) (Wi : SWi.Idx → EReal) (bi : Sbi.Idx → EReal) (Wo : SWo.Idx → EReal) (bo : Sbo.Idx → EReal)

/-- One entry of the input projection X·Wi + bi. -/
def proj (b : Fin 4) (s : Fin 8192) (e : Fin 3072) : EReal :=
  (∑ d : Fin 1024, X (ix3 b s d) * Wi (ix2 d e)) + bi (ix1 e)

/-- The sum over the sequence of the rectified key times the rectified value. -/
def kvsum (b : Fin 4) (e : Fin 1024) : EReal :=
  ∑ s : Fin 8192, max (proj X Wi bi b s (kcol e)) 0 * max (proj X Wi bi b s (vcol e)) 0

/-- The gate of a batch: half the sum, plus one half. -/
def gate (b : Fin 4) (e : Fin 1024) : EReal := half * kvsum X Wi bi b e + half

/-- One entry of the result. -/
def outAt (b : Fin 4) (s : Fin 8192) (q : Fin 1024) : EReal :=
  ((∑ e : Fin 1024, (gate X Wi bi b e * proj X Wi bi b s (qcol e)) * Wo (ix2 e q)) + bo (ix1 q)) + X (ix3 b s q)

/-- The whole result array. -/
def G : SX.Idx → EReal := fun i => outAt X Wi bi Wo bo (i 0) (i 1) (i 2)

theorem G_apply (b : Fin 4) (s : Fin 8192) (q : Fin 1024) :
    G X Wi bi Wo bo (ix3 b s q) = outAt X Wi bi Wo bo b s q := rfl

end Cert.Spec

end
-- ==== Proof.RefSide.lean ====
/-
  The reference program's result, read entry by entry, is the function of Spec.lean.

  The reference computes, in this order: the projection X·Wi + bi over 3072 columns; its three
  column thirds (queries, keys, values); the entrywise maximum of the keys and of the values with
  zero; their product summed over the sequence axis, starting from zero; that sum times one half
  plus one half (the gate, one number per batch and column); the gate repeated along the sequence
  and multiplied into the queries; the product with Wo; plus bo; plus X.  Each stage below is read
  at an entry named by its coordinates and identified with the matching piece of Spec.lean.
-/
import proofs.«176626_j47467978556114_2_alg».proof.Proof.Gen.ReferenceIdeal.Run
import proofs.«176626_j47467978556114_2_alg».proof.Proof.Gen.ReferenceIdeal.Read
import proofs.«176626_j47467978556114_2_alg».proof.Proof.Spec

noncomputable section

namespace Cert.RefSide

open Cert.ReferenceIdeal Cert.ReferenceIdeal.Gen Cert.ReferenceIdeal.Read Cert.Spec
open Idealize.ShloMosaic Idealize.ShloMosaic.TcCoe Idealize.SL.Sem Idealize.ShloMosaic.ValueIdx

variable (X : SX.Idx → EReal) (Wi : SWi.Idx → EReal) (bi : Sbi.Idx → EReal) (Wo : SWo.Idx → EReal) (bo : Sbo.Idx → EReal)

/-! ## Where each stage reads its operands

An entry of an array is named by its coordinates; each lemma says at which entry of its operand a
stage reads when asked for a given entry of its result. -/

/-- Entry (b, s, e) of X·Wi pairs, at contraction position k, the entry (b, s, k) of X … -/
theorem lidx_proj (b : Fin 4) (s : Fin 8192) (e : Fin 3072) (k : Fin 1024) :
    lidx_main_v0 (ix3 b s e) k = ix3 b s k := by
  funext a; match a with | ⟨0, _⟩ => rfl | ⟨1, _⟩ => rfl | ⟨2, _⟩ => rfl

/-- … with the entry (k, e) of Wi. -/
theorem ridx_proj (b : Fin 4) (s : Fin 8192) (e : Fin 3072) (k : Fin 1024) :
    ridx_main_v0 (ix3 b s e) k = ix2 k e := by
  funext a; match a with | ⟨0, _⟩ => rfl | ⟨1, _⟩ => rfl

/-- The bias bi, repeated over batch and sequence, is read at its column alone. -/
theorem idx_bias (b : Fin 4) (s : Fin 8192) (e : Fin 3072) :
    idx_main_v1 (idx_main_v2 (ix3 b s e)) = ix1 e := by
  funext a; match a with | ⟨0, _⟩ => rfl

/-- Column e of the first third of the projected columns is column e itself. -/
theorem idx_query (b : Fin 4) (s : Fin 8192) (e : Fin 1024) :
    idx_main_v4 (ix3 b s e) = ix3 b s (qcol e) := by
  funext a; match a with | ⟨0, _⟩ => rfl | ⟨1, _⟩ => rfl | ⟨2, _⟩ => rfl

/-- Column e of the second third is column 1024 + e. -/
theorem idx_key (b : Fin 4) (s : Fin 8192) (e : Fin 1024) :
    idx_main_v5 (ix3 b s e) = ix3 b s (kcol e) := by
  funext a; match a with | ⟨0, _⟩ => rfl | ⟨1, _⟩ => rfl | ⟨2, _⟩ => rfl

/-- Column e of the last third is column 2048 + e. -/
theorem idx_value (b : Fin 4) (s : Fin 8192) (e : Fin 1024) :
    idx_main_v6 (ix3 b s e) = ix3 b s (vcol e) := by
  funext a; match a with | ⟨0, _⟩ => rfl | ⟨1, _⟩ => rfl | ⟨2, _⟩ => rfl

/-- The sum over the sequence axis at (b, e) runs over the entries (b, k, e). -/
theorem idx_seq (b : Fin 4) (e : Fin 1024) (k : Fin 8192) :
    idx_main_v10 (ix2 b e) k = ix3 b k e := by
  funext a; match a with | ⟨0, _⟩ => rfl | ⟨1, _⟩ => rfl | ⟨2, _⟩ => rfl

/-- The gate repeated along the sequence is read at (b, e), whatever the position s. -/
theorem idx_gate (b : Fin 4) (s : Fin 8192) (e : Fin 1024) :
    idx_main_v15 (idx_main_v16 (ix3 b s e)) = ix2 b e := by
  funext a; match a with | ⟨0, _⟩ => rfl | ⟨1, _⟩ => rfl

/-- Entry (b, s, q) of the product with Wo pairs, at contraction position k, the entry (b, s, k) of
    the gated queries … -/
theorem lidx_out (b : Fin 4) (s : Fin 8192) (q : Fin 1024) (k : Fin 1024) :
    lidx_main_v18 (ix3 b s q) k = ix3 b s k := by
  funext a; match a with | ⟨0, _⟩ => rfl | ⟨1, _⟩ => rfl | ⟨2, _⟩ => rfl

/-- … with the entry (k, q) of Wo. -/
theorem ridx_out (b : Fin 4) (s : Fin 8192) (q : Fin 1024) (k : Fin 1024) :
    ridx_main_v18 (ix3 b s q) k = ix2 k q := by
  funext a; match a with | ⟨0, _⟩ => rfl | ⟨1, _⟩ => rfl

/-- The bias bo, repeated over batch and sequence, is read at its column alone. -/
theorem idx_bias_out (b : Fin 4) (s : Fin 8192) (q : Fin 1024) :
    idx_main_v19 (idx_main_v20 (ix3 b s q)) = ix1 q := by
  funext a; match a with | ⟨0, _⟩ => rfl

/-! ## The stages, each at an entry -/

/-- The projection X·Wi + bi at entry (b, s, e) is Σ_d X(b, s, d)·Wi(d, e) + bi(e). -/
theorem proj_at (b : Fin 4) (s : Fin 8192) (e : Fin 3072) :
    val_main_v3 (F := Ideal) X Wi bi (ix3 b s e) = proj X Wi bi b s e := by
  rw [val_main_v3_apply, val_main_v0_apply, val_main_v2_apply, val_main_v1_apply, idx_bias]
  simp only [lidx_proj, ridx_proj, Ideal.addf_def]
  rfl

/-- The queries are the first third of the projected columns. -/
theorem query_at (b : Fin 4) (s : Fin 8192) (e : Fin 1024) :
    val_main_v4 (F := Ideal) X Wi bi (ix3 b s e) = proj X Wi bi b s (qcol e) := by
  rw [val_main_v4_apply, idx_query, proj_at]

/-- The keys are the second third. -/
theorem key_at (b : Fin 4) (s : Fin 8192) (e : Fin 1024) :
    val_main_v5 (F := Ideal) X Wi bi (ix3 b s e) = proj X Wi bi b s (kcol e) := by
  rw [val_main_v5_apply, idx_key, proj_at]

/-- The values are the last third. -/
theorem value_at (b : Fin 4) (s : Fin 8192) (e : Fin 1024) :
    val_main_v6 (F := Ideal) X Wi bi (ix3 b s e) = proj X Wi bi b s (vcol e) := by
  rw [val_main_v6_apply, idx_value, proj_at]

/-- The array the keys are compared with is zero everywhere: the word of all zero bits is the number 0. -/
theorem zero_key_at (i : S4x8192x1024.Idx) : val_main_call0_v0 (F := Ideal) i = 0 := by
  rw [val_main_call0_v0_apply, val_main_call0_cst_apply, Ideal.ofBits_def, Ideal.ofBits_zero_f32]

/-- The array the values are compared with is zero everywhere. -/
theorem zero_value_at (i : S4x8192x1024.Idx) : val_main_call1_v0 (F := Ideal) i = 0 := by
  rw [val_main_call1_v0_apply, val_main_call1_cst_apply, Ideal.ofBits_def, Ideal.ofBits_zero_f32]

/-- The rectified key: the larger of the key and 0. -/
theorem relu_key_at (b : Fin 4) (s : Fin 8192) (e : Fin 1024) :
    val_main_v7 (F := Ideal) X Wi bi (ix3 b s e) = max (proj X Wi bi b s (kcol e)) 0 := by
  rw [val_main_v7_apply, key_at, zero_key_at, Ideal.maximumf_def]

/-- The rectified value: the larger of the value and 0. -/
theorem relu_value_at (b : Fin 4) (s : Fin 8192) (e : Fin 1024) :
    val_main_v8 (F := Ideal) X Wi bi (ix3 b s e) = max (proj X Wi bi b s (vcol e)) 0 := by
  rw [val_main_v8_apply, value_at, zero_value_at, Ideal.maximumf_def]

/-- Their product, entry by entry. -/
theorem kv_at (b : Fin 4) (s : Fin 8192) (e : Fin 1024) :
    val_main_v9 (F := Ideal) X Wi bi (ix3 b s e)
      = max (proj X Wi bi b s (kcol e)) 0 * max (proj X Wi bi b s (vcol e)) 0 := by
  rw [val_main_v9_apply, relu_key_at, relu_value_at, Ideal.mulf_def]

/-- The sum of that product over the sequence: it starts from the number 0, which adds nothing. -/
theorem kvsum_at (b : Fin 4) (e : Fin 1024) :
    val_main_v10 (F := Ideal) X Wi bi (ix2 b e) = kvsum X Wi bi b e := by
  rw [val_main_v10_apply, val_main_cst_apply, Ideal.ofBits_def, Ideal.ofBits_zero_f32, zero_add]
  simp only [idx_seq, kv_at]
  rfl

/-- The first one half, repeated over batch and column. -/
theorem half_mul_at (i : S4x1024.Idx) : val_main_v11 (F := Ideal) i = half := by
  rw [val_main_v11_apply, val_main_cst_0_apply, Ideal.ofBits_def]

/-- The second one half, repeated over batch and column. -/
theorem half_add_at (i : S4x1024.Idx) : val_main_v13 (F := Ideal) i = half := by
  rw [val_main_v13_apply, val_main_cst_1_apply, Ideal.ofBits_def]

/-- The gate: one half times the sum, plus one half. -/
theorem gate_at (b : Fin 4) (e : Fin 1024) :
    val_main_v14 (F := Ideal) X Wi bi (ix2 b e) = gate X Wi bi b e := by
  rw [val_main_v14_apply, val_main_v12_apply, half_mul_at, half_add_at, kvsum_at, Ideal.addf_def, Ideal.mulf_def]
  rfl

/-- The gate repeated along the sequence. -/
theorem gate_rep_at (b : Fin 4) (s : Fin 8192) (e : Fin 1024) :
    val_main_v16 (F := Ideal) X Wi bi (ix3 b s e) = gate X Wi bi b e := by
  rw [val_main_v16_apply, val_main_v15_apply, idx_gate, gate_at]

/-- The gated query. -/
theorem gated_query_at (b : Fin 4) (s : Fin 8192) (e : Fin 1024) :
    val_main_v17 (F := Ideal) X Wi bi (ix3 b s e) = gate X Wi bi b e * proj X Wi bi b s (qcol e) := by
  rw [val_main_v17_apply, gate_rep_at, query_at, Ideal.mulf_def]

/-- The product of the gated queries with Wo at entry (b, s, q). -/
theorem out_prod_at (b : Fin 4) (s : Fin 8192) (q : Fin 1024) :
    val_main_v18 (F := Ideal) X Wi bi Wo (ix3 b s q)
      = ∑ e : Fin 1024, (gate X Wi bi b e * proj X Wi bi b s (qcol e)) * Wo (ix2 e q) := by
  rw [val_main_v18_apply]
  simp only [lidx_out, ridx_out, gated_query_at]

/-- The bias bo at entry (b, s, q). -/
theorem bias_out_at (b : Fin 4) (s : Fin 8192) (q : Fin 1024) :
    val_main_v20 (F := Ideal) bo (ix3 b s q) = bo (ix1 q) := by
  rw [val_main_v20_apply, val_main_v19_apply, idx_bias_out]

/-- The last stage at entry (b, s, q): the product with Wo, plus bo, plus X. -/
theorem out_at (b : Fin 4) (s : Fin 8192) (q : Fin 1024) :
    val_main_v22 (F := Ideal) X Wi bi Wo bo (ix3 b s q) = outAt X Wi bi Wo bo b s q := by
  rw [val_main_v22_apply, val_main_v21_apply, out_prod_at, bias_out_at, Ideal.addf_def, Ideal.addf_def]
  rfl

/-! ## The whole result -/

/-- The reference's last stage, as a function of the five argument arrays, is the function of Spec.lean:
    the two agree at every entry (b, s, q). -/
theorem result_eq : val_main_v22 (F := Ideal) X Wi bi Wo bo = G X Wi bi Wo bo := by
  funext i
  obtain ⟨b, s, q, rfl⟩ : ∃ (b : Fin 4) (s : Fin 8192) (q : Fin 1024), i = ix3 b s q := ⟨i 0, i 1, i 2, eq_ix3 i⟩
  rw [out_at, G_apply]

/-- Every weakly fair execution of the reference program, from any memory with zero counters, terminates
    with its result array holding the function of Spec.lean of the five argument arrays as they were at
    the start, and with those arrays unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v22) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v22_eq (F := Ideal) _ _ _ _ _).trans (result_eq _ _ _ _ _)), (h c).2⟩)
    (Cert.ReferenceIdeal.Value.run (F := Ideal) m ρ)

end Cert.RefSide

end
-- ==== Proof.KI.CaseVals.lean ====
/-
  The pieces the symbolic runs found, read back as values: in every case the accumulator ends at the tile's
  payload (the accumulator it was handed, plus the tile's sum — at the first tile the handed accumulator is the
  zero row just stored), the output row at the last tile ends at the scaled and shifted accumulator, and the
  second call's output tile ends at its payload of the six input blocks.
-/
import proofs.«176626_j47467978556114_2_alg».proof.Proof.KI.Region0
import proofs.«176626_j47467978556114_2_alg».proof.Proof.KI.Region1

import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- In between: the accumulator ends at the one covering store's payload, whose loads read the whole buffers. -/
theorem sout_B (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : ¬cond0_1 i)
    (x0 : Vec F S1x512x1024 .f32) (x1 : Vec F S1024x2048 .bf16) (x2 : Vec F S2048 .f32) (xs0 : Vec F S1x1024 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S1x512x1024) hz3, View.ld_unit_zero (S := S1024x2048) hz2, View.ld_unit_zero (S := S2048) hz1, View.ld_unit_zero (S := S1x1024) hz2]

/-- First tile: the zero row is stored, read back, and the tile's payload over it is stored. -/
theorem sout_A (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : cond0_0 i) (hc1 : ¬cond0_1 i)
    (x0 : Vec F S1x512x1024 .f32) (x1 : Vec F S1024x2048 .bf16) (x2 : Vec F S2048 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, harg4.read_unread, harg6.read_unread, View.ld_unit_zero (S := S1x512x1024) hz3, View.ld_unit_zero (S := S1024x2048) hz2, View.ld_unit_zero (S := S2048) hz1, View.ld_unit_zero (S := S1x1024) hz2]

/-- Last tile, the accumulator: as in between. -/
theorem sout_C (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S1x512x1024) hz3, View.ld_unit_zero (S := S1024x2048) hz2, View.ld_unit_zero (S := S2048) hz1, View.ld_unit_zero (S := S1x1024) hz2]

/-- Last tile, the output row: the scaled and shifted accumulator, read back after this tile's sum was added. -/
theorem out_C (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S2048 .f32) (harg4 : arg4.IsWhole) (arg5 : Memref sig .tc .vmem S1x1x1024 .f32) (harg5 : arg5.IsWhole) (arg6 : Memref sig .tc .vmem S1x1024 .f32) (harg6 : arg6.IsWhole) (hc0 : ¬cond0_0 i) (hc1 : cond0_1 i)
    (x0 : Vec F S1x512x1024 .f32) (x1 : Vec F S1024x2048 .bf16) (x2 : Vec F S2048 .f32) (xs0 : Vec F S1x1024 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1024) _ hz2]
  simp only [View.readAt_eq_ld, harg2.read_unread, harg3.read_unread, harg4.read_unread, harg6.read_unread, View.ld_unit_zero (S := S1x512x1024) hz3, View.ld_unit_zero (S := S1024x2048) hz2, View.ld_unit_zero (S := S2048) hz1, View.ld_unit_zero (S := S1x1024) hz2]

/-- The second call's output tile: the one covering store's payload of the six input blocks. -/
theorem out_tile (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x512x1024 .f32) (harg8 : arg8.IsWhole)
    (x0 : Vec F S1x512x1024 .f32) (x1 : Vec F S1024x1024 .bf16) (x2 : Vec F S1024 .f32) (x3 : Vec F S1x1x1024 .f32) (x4 : Vec F S1024x1024 .bf16) (x5 : Vec F S1024 .f32) :
    out1_6 c i arg2 harg2 arg3 harg3 arg4 harg4 arg5 harg5 arg6 harg6 arg7 harg7 arg8 harg8 x0 x1 x2 x3 x4 x5 = k1_pay1 x0 x1 x2 x3 x4 x5 := by
  unfold out1_6
  rw [View.read_writes_eq_canon _ _ _ (cover1_6 c i arg2 harg2 arg3 harg3 arg4 harg4 arg5 harg5 arg6 harg6 arg7 harg7 arg8 harg8 x0 x1 x2 x3 x4 x5)]
  unfold kernelRun1
  dsimp only
  sl_unfold_words
  rw [View.canon_unit_zero hz3]
  simp only [View.readAt_eq_ld, harg2.read_unread, harg3.read_unread, harg4.read_unread, harg5.read_unread, harg6.read_unread, harg7.read_unread, View.ld_unit_zero (S := S1x512x1024) hz3, View.ld_unit_zero (S := S1024x1024) hz2, View.ld_unit_zero (S := S1024) hz1, View.ld_unit_zero (S := S1x1x1024) hz3]

end Cert.KernelIdeal.Fr

end
-- ==== Proof.PayMatmul.lean ====
/-
  A matrix product into a zero accumulator, read at one entry.

  Both kernels multiply a 512-row block of activations by a weight matrix whose rows are indexed by
  the 1024 input features.  The dimension numbers contract axis 1 of the left operand with axis 0 of
  the right one, so the entry at row p and column c is the sum over the feature d of
  left(p, d) * right(d, c); the accumulator is the zero word, which is the extended real 0.
-/
import proofs.«176626_j47467978556114_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The dimension numbers of the product with the 2048-column weight matrix. -/
abbrev DA : DotDims S512x1024 S1024x2048 S512x2048 := dot_S512x1024_S1024x2048_S512x2048_1_0_0_1_n_n
/-- The dimension numbers of the product with a 1024-column weight matrix. -/
abbrev DB : DotDims S512x1024 S1024x1024 S512x1024 := dot_S512x1024_S1024x1024_S512x1024_1_0_0_1_n_n

/-! ## The 2048-column product -/

/-- The left operand's row is the output's row. -/
theorem lhsA_row (i : S512x2048.Idx) (q : DA.contr.Idx) : (DA.lhsIdx i q 0).val = (i 0).val := by
  unfold DotDims.lhsIdx
  rw [dif_neg (show ¬(0 : Fin S512x1024.rank) ∈ DA.lhsBatch by decide),
    dif_pos (show (0 : Fin S512x1024.rank) ∈ DA.lhsNonContracting by decide)]
  rfl
/-- The left operand's column is the contraction position. -/
theorem lhsA_col (i : S512x2048.Idx) (q : DA.contr.Idx) : (DA.lhsIdx i q 1).val = (q ⟨0, by decide⟩).val :=
  DA.lhsIdx_val_of_single rfl i q
/-- The right operand's row is the contraction position. -/
theorem rhsA_row (i : S512x2048.Idx) (q : DA.contr.Idx) : (DA.rhsIdx i q 0).val = (q ⟨0, by decide⟩).val :=
  DA.rhsIdx_val_of_single rfl i q
/-- The right operand's column is the output's column. -/
theorem rhsA_col (i : S512x2048.Idx) (q : DA.contr.Idx) : (DA.rhsIdx i q 1).val = (i 1).val := by
  unfold DotDims.rhsIdx
  rw [dif_neg (show ¬(1 : Fin S1024x2048.rank) ∈ DA.rhsBatch by decide),
    dif_pos (show (1 : Fin S1024x2048.rank) ∈ DA.rhsNonContracting by decide)]
  rfl

/-- Entry (p, c) of the 512×1024 by 1024×2048 product into zeros is Σ_d left(p, d) · right(d, c). -/
theorem matmulA_apply (l : FVec Ideal S512x1024 .bf16) (r : FVec Ideal S1024x2048 .bf16) (p : Fin 512) (c : Fin 2048) :
    matmul (F := Ideal) dot_S512x1024_S1024x2048_S512x2048_1_0_0_1_n_n none l r
        (constant (F := Ideal) S512x2048 .f32 0x00000000#32) (ix2 p c)
      = ∑ d : Fin 1024, l (ix2 p d) * r (ix2 d c) := by
  refine (Ideal.matmul_constant_zero_apply DA none l r (ix2 p c)).trans ?_
  rw [← Equiv.sum_comp (contrEquiv1 DA 1024 rfl rfl).symm]
  refine Finset.sum_congr rfl fun k _ => ?_
  have hk := contrEquiv1_symm_val DA 1024 rfl rfl k
  have el : DA.lhsIdx (ix2 p c) ((contrEquiv1 DA 1024 rfl rfl).symm k) = ix2 p k :=
    funext fun a => Fin.ext (by
      match a with
      | ⟨0, _⟩ => exact lhsA_row _ _
      | ⟨1, _⟩ => exact (lhsA_col _ _).trans hk)
  have er : DA.rhsIdx (ix2 p c) ((contrEquiv1 DA 1024 rfl rfl).symm k) = ix2 k c :=
    funext fun a => Fin.ext (by
      match a with
      | ⟨0, _⟩ => exact (rhsA_row _ _).trans hk
      | ⟨1, _⟩ => exact rhsA_col _ _)
  rw [el, er]

/-! ## The 1024-column product -/

theorem lhsB_row (i : S512x1024.Idx) (q : DB.contr.Idx) : (DB.lhsIdx i q 0).val = (i 0).val := by
  unfold DotDims.lhsIdx
  rw [dif_neg (show ¬(0 : Fin S512x1024.rank) ∈ DB.lhsBatch by decide),
    dif_pos (show (0 : Fin S512x1024.rank) ∈ DB.lhsNonContracting by decide)]
  rfl
theorem lhsB_col (i : S512x1024.Idx) (q : DB.contr.Idx) : (DB.lhsIdx i q 1).val = (q ⟨0, by decide⟩).val :=
  DB.lhsIdx_val_of_single rfl i q
theorem rhsB_row (i : S512x1024.Idx) (q : DB.contr.Idx) : (DB.rhsIdx i q 0).val = (q ⟨0, by decide⟩).val :=
  DB.rhsIdx_val_of_single rfl i q
theorem rhsB_col (i : S512x1024.Idx) (q : DB.contr.Idx) : (DB.rhsIdx i q 1).val = (i 1).val := by
  unfold DotDims.rhsIdx
  rw [dif_neg (show ¬(1 : Fin S1024x1024.rank) ∈ DB.rhsBatch by decide),
    dif_pos (show (1 : Fin S1024x1024.rank) ∈ DB.rhsNonContracting by decide)]
  rfl

/-- Entry (p, c) of the 512×1024 by 1024×1024 product into zeros is Σ_d left(p, d) · right(d, c). -/
theorem matmulB_apply (l : FVec Ideal S512x1024 .bf16) (r : FVec Ideal S1024x1024 .bf16) (p : Fin 512) (c : Fin 1024) :
    matmul (F := Ideal) dot_S512x1024_S1024x1024_S512x1024_1_0_0_1_n_n none l r
        (constant (F := Ideal) S512x1024 .f32 0x00000000#32) (ix2 p c)
      = ∑ d : Fin 1024, l (ix2 p d) * r (ix2 d c) := by
  refine (Ideal.matmul_constant_zero_apply DB none l r (ix2 p c)).trans ?_
  rw [← Equiv.sum_comp (contrEquiv1 DB 1024 rfl rfl).symm]
  refine Finset.sum_congr rfl fun k _ => ?_
  have hk := contrEquiv1_symm_val DB 1024 rfl rfl k
  have el : DB.lhsIdx (ix2 p c) ((contrEquiv1 DB 1024 rfl rfl).symm k) = ix2 p k :=
    funext fun a => Fin.ext (by
      match a with
      | ⟨0, _⟩ => exact lhsB_row _ _
      | ⟨1, _⟩ => exact (lhsB_col _ _).trans hk)
  have er : DB.rhsIdx (ix2 p c) ((contrEquiv1 DB 1024 rfl rfl).symm k) = ix2 k c :=
    funext fun a => Fin.ext (by
      match a with
      | ⟨0, _⟩ => exact (rhsB_row _ _).trans hk
      | ⟨1, _⟩ => exact rhsB_col _ _)
  rw [el, er]

end Cert.KernelIdeal.Pay

end
-- ==== Proof.Payloads.lean ====
/-
  The values the two kernels store, read at one entry.

  The first kernel works on a block of 512 positions.  With y(p, c) = Σ_d x(p, d) · w(d, c) + b(c)
  for the 2048 columns c of its weight block, the first 1024 columns and the last 1024 columns are
  rectified and multiplied entry by entry, the products are summed over the 512 positions, and the
  sum is added to a running accumulator; at the first block the accumulator is set to zero, and at
  the last one the result ½ · acc + ½ is written out.  The second kernel computes, for a position p
  and an output column q, Σ_e (a(e) · (Σ_d x(p, d) · wq(d, e) + bq(e))) · wo(e, q) + bo(q) + x(p, q).
  Changing the float format of an operand does nothing on the extended reals.
-/
import proofs.«176626_j47467978556114_2_alg».proof.Proof.PayMatmul

noncomputable section

namespace Cert.KernelIdeal.Pay

open Cert.KernelIdeal Cert.KernelIdeal.Gen Idealize.ShloMosaic Idealize.ShloMosaic.ValueIdx

/-- Column e of the first half of the 2048 columns. -/
def lo (e : Fin 1024) : Fin 2048 := ⟨e.val, by have := e.isLt; omega⟩
/-- Column e of the second half of the 2048 columns. -/
def hi (e : Fin 1024) : Fin 2048 := ⟨1024 + e.val, by have := e.isLt; omega⟩

/-! ## The stages that are not entry by entry -/

/-- A bias vector laid out as one row and repeated over the 512 rows reads, at (p, c), the bias at c. -/
theorem biasRow_apply {n : Nat} {α : Type} (v : (⟨1, ![n]⟩ : Shape).Idx → α)
    (h : (⟨1, ![n]⟩ : Shape).ShapeCasts ⟨2, ![1, n]⟩) (h' : (⟨2, ![1, n]⟩ : Shape).Broadcasts ⟨2, ![512, n]⟩)
    (p : Fin 512) (c : Fin n) :
    broadcastTo ⟨2, ![512, n]⟩ (shapeCast ⟨2, ![1, n]⟩ v h) h' (ix2 p c) = v (ix1 c) := by
  rw [broadcastTo_1b_ab_apply, shapeCast_a_1a_apply]

/-- The first kernel's affine stage: x · w + b at row p and column c of the 2048. -/
theorem affineA_apply (x : FVec Ideal S1x512x1024 .f32) (w : FVec Ideal S1024x2048 .bf16) (b : FVec Ideal S2048 .f32)
    (h1 : S1x512x1024.ShapeCasts S512x1024) (h2 : FTy.bits .bf16 < FTy.bits .f32)
    (h3 : S1024x2048.ShapeCasts S1024x2048) (h4 : S2048.ShapeCasts S2048) (h5 : S2048.ShapeCasts S1x2048)
    (h6 : S1x2048.Broadcasts S512x2048) (p : Fin 512) (c : Fin 2048) :
    addf (F := Ideal)
        (matmul dot_S512x1024_S1024x2048_S512x2048_1_0_0_1_n_n none (truncf .bf16 (shapeCast S512x1024 x h1) h2)
          (shapeCast S1024x2048 w h3) (constant S512x2048 .f32 0x00000000#32))
        (broadcastTo S512x2048 (shapeCast S1x2048 (shapeCast S2048 b h4) h5) h6) (ix2 p c)
      = (∑ d : Fin 1024, x (ix3 (0 : Fin 1) p d) * w (ix2 d c)) + b (ix1 c) := by
  refine (addf_apply _ _ _).trans ?_
  rw [matmulA_apply, biasRow_apply, shapeCast_self, shapeCast_self]
  refine congrArg (· + b (ix1 c)) (Finset.sum_congr rfl fun d _ => ?_)
  rw [truncf_apply, shapeCast_1ab_ab_apply]

/-- The rectified first-half column times the rectified second-half column, at (p, e). -/
theorem reluPair_apply (y : FVec Ideal S512x2048 .f32) (h0 : S512x2048.Slices ![0, 0] S512x1024)
    (h1 : S512x2048.Slices ![0, 1024] S512x1024) (p : Fin 512) (e : Fin 1024) :
    mulf (F := Ideal)
        (maximumf (extractStridedSlice S512x1024 ![0, 0] y h0) (broadcast S512x1024 (Scalar.ofBits .f32 0x00000000#32)))
        (maximumf (extractStridedSlice S512x1024 ![0, 1024] y h1) (broadcast S512x1024 (Scalar.ofBits .f32 0x00000000#32)))
        (ix2 p e)
      = max (y (ix2 p (lo e))) 0 * max (y (ix2 p (hi e))) 0 := by
  show max (extractStridedSlice S512x1024 ![0, 0] y h0 (ix2 p e)) (Ideal.ofBits .f32 0x00000000#32)
      * max (extractStridedSlice S512x1024 ![0, 1024] y h1 (ix2 p e)) (Ideal.ofBits .f32 0x00000000#32) = _
  rw [Ideal.ofBits_zero_f32, slice2_axis1_apply 0 y h0 p e (lo e) (Nat.zero_add _).symm,
    slice2_axis1_apply 1024 y h1 p e (hi e) rfl]

/-- The sum over the 512 rows, started from the zero word: column e of the result is Σ_p src(p, e). -/
theorem rowSum_apply (src : FVec Ideal S512x1024 .f32) (h : S512x1024.Reduces [0] S1024)
    (hacc : (0x00000000#32 : BitVec 32) = 0x00000000#32) (e : Fin 1024) :
    multiReduction (F := Ideal) .add [0] S1024 src 0x00000000#32 h (.inl rfl) hacc (ix1 e)
      = ∑ p : Fin 512, src (ix2 p e) := by
  refine (Ideal.multiReduction_add_single src 0x00000000#32 h (.inl rfl) hacc (ix1 e)).trans ?_
  refine Finset.sum_congr rfl fun p _ => congrArg src ?_
  funext a
  refine Fin.ext ?_
  match a with
  | ⟨0, _⟩ => rfl
  | ⟨1, _⟩ => rfl

/-! ## The first kernel -/

/-- At the first block the accumulator is set to zero. -/
theorem pay1_apply (e : Fin 1024) : k0_pay1 (F := Ideal) (ix2 (0 : Fin 1) e) = 0 := by
  unfold k0_pay1
  refine (congrFun (shapeCast_self _ _) _).trans ?_
  exact Ideal.ofBits_zero_f32

/-- What one block of 512 positions adds to column e of the accumulator. -/
def contrib (x : Vec Ideal S1x512x1024 .f32) (w : Vec Ideal S1024x2048 .bf16) (b : Vec Ideal S2048 .f32) (e : Fin 1024) : EReal :=
  ∑ p : Fin 512, max ((∑ d : Fin 1024, x (ix3 (0 : Fin 1) p d) * w (ix2 d (lo e))) + b (ix1 (lo e))) 0 * max ((∑ d : Fin 1024, x (ix3 (0 : Fin 1) p d) * w (ix2 d (hi e))) + b (ix1 (hi e))) 0

/-- Every block adds its contribution to the accumulator. -/
theorem pay2_apply (x : Vec Ideal S1x512x1024 .f32) (w : Vec Ideal S1024x2048 .bf16) (b : Vec Ideal S2048 .f32)
    (acc : Vec Ideal S1x1024 .f32) (e : Fin 1024) :
    k0_pay2 (F := Ideal) x w b acc (ix2 (0 : Fin 1) e) = acc (ix2 (0 : Fin 1) e) + contrib x w b e := by
  unfold k0_pay2
  refine (congrFun (shapeCast_self _ _) _).trans ?_
  refine congrArg (acc (ix2 (0 : Fin 1) e) + ·) ?_
  refine (shapeCast_a_1a_apply _ _ (0 : Fin 1) e).trans ?_
  refine (rowSum_apply _ _ _ e).trans ?_
  unfold contrib
  refine Finset.sum_congr rfl fun p _ => ?_
  refine (reluPair_apply _ _ _ p e).trans ?_
  rw [affineA_apply, affineA_apply]

/-- At the last block the gate is half the accumulator plus one half. -/
theorem pay3_apply (acc : Vec Ideal S1x1024 .f32) (e : Fin 1024) :
    k0_pay3 (F := Ideal) acc (ix3 (0 : Fin 1) (0 : Fin 1) e)
      = Ideal.ofBits .f32 0x3F000000#32 * acc (ix2 (0 : Fin 1) e) + Ideal.ofBits .f32 0x3F000000#32 := by
  unfold k0_pay3
  refine (shapeCast_ab_1ab_apply _ _ (0 : Fin 1) (0 : Fin 1) e).trans ?_
  rfl

/-! ## The second kernel -/

/-- The second kernel's affine stage: x · wq + bq at row p and column e. -/
theorem affineB_apply (x : FVec Ideal S1x512x1024 .f32) (wq : FVec Ideal S1024x1024 .bf16) (bq : FVec Ideal S1024 .f32)
    (h1 : S1x512x1024.ShapeCasts S512x1024) (h2 : FTy.bits .bf16 < FTy.bits .f32)
    (h3 : S1024x1024.ShapeCasts S1024x1024) (h4 : S1024.ShapeCasts S1024) (h5 : S1024.ShapeCasts S1x1024)
    (h6 : S1x1024.Broadcasts S512x1024) (p : Fin 512) (e : Fin 1024) :
    addf (F := Ideal)
        (matmul dot_S512x1024_S1024x1024_S512x1024_1_0_0_1_n_n none (truncf .bf16 (shapeCast S512x1024 x h1) h2)
          (shapeCast S1024x1024 wq h3) (constant S512x1024 .f32 0x00000000#32))
        (broadcastTo S512x1024 (shapeCast S1x1024 (shapeCast S1024 bq h4) h5) h6) (ix2 p e)
      = (∑ d : Fin 1024, x (ix3 (0 : Fin 1) p d) * wq (ix2 d e)) + bq (ix1 e) := by
  refine (addf_apply _ _ _).trans ?_
  rw [matmulB_apply, biasRow_apply, shapeCast_self, shapeCast_self]
  refine congrArg (· + bq (ix1 e)) (Finset.sum_congr rfl fun d _ => ?_)
  rw [truncf_apply, shapeCast_1ab_ab_apply]

/-- The gate of the batch, one row of 1024 entries, repeated over the 512 rows. -/
theorem gateRow_apply (a : FVec Ideal S1x1x1024 .f32) (h : S1x1x1024.ShapeCasts S1x1024)
    (h' : S1x1024.Broadcasts S512x1024) (p : Fin 512) (e : Fin 1024) :
    broadcastTo S512x1024 (shapeCast S1x1024 a h) h' (ix2 p e) = a (ix3 (0 : Fin 1) (0 : Fin 1) e) := by
  rw [broadcastTo_1b_ab_apply, shapeCast_1ab_ab_apply]

/-- The gated projection times the output weights, plus the output bias, plus the input itself. -/
theorem payB_apply (x : Vec Ideal S1x512x1024 .f32) (wq : Vec Ideal S1024x1024 .bf16) (bq : Vec Ideal S1024 .f32)
    (a : Vec Ideal S1x1x1024 .f32) (wo : Vec Ideal S1024x1024 .bf16) (bo : Vec Ideal S1024 .f32) (p : Fin 512) (q : Fin 1024) :
    k1_pay1 (F := Ideal) x wq bq a wo bo (ix3 (0 : Fin 1) p q)
      = ((∑ e : Fin 1024, (a (ix3 (0 : Fin 1) (0 : Fin 1) e) * ((∑ d : Fin 1024, x (ix3 (0 : Fin 1) p d) * wq (ix2 d e)) + bq (ix1 e))) * wo (ix2 e q)) + bo (ix1 q)) + x (ix3 (0 : Fin 1) p q) := by
  unfold k1_pay1
  refine (shapeCast_ab_1ab_apply _ _ (0 : Fin 1) p q).trans ?_
  refine (addf_apply _ _ _).trans ?_
  refine congrArg₂ (· + ·) ?_ (shapeCast_1ab_ab_apply _ _ p q)
  refine (addf_apply _ _ _).trans ?_
  refine congrArg₂ (· + ·) ?_ (biasRow_apply _ _ _ p q)
  refine (matmulB_apply _ _ p q).trans ?_
  refine Finset.sum_congr rfl fun e _ => ?_
  refine congrArg₂ (· * ·) ?_ (congrFun (shapeCast_self _ _) _)
  refine (truncf_apply (φ := .f32) (ψ := .bf16) _ bitsLt_bf16_f32 _).trans ?_
  refine (mulf_apply _ _ _).trans ?_
  exact congrArg₂ (· * ·) (gateRow_apply a _ _ p e) (affineB_apply x wq bq _ _ _ _ _ _ p e)

end Cert.KernelIdeal.Pay

end
-- ==== Proof.Val.Tile.lean ====
/-
  The second pallas_call's output array, at the ideal values, as one function of the buffers' contents when the
  call is entered: entry (b, s, q) is the gated query row s of batch b times the output weights' column q, plus the
  output bias, plus the input entry. A grid point writes back one [512,1024] tile of it; the 64 tiles fill the array.
-/
import proofs.«176626_j47467978556114_2_alg».proof.Proof.KI.CaseVals
import proofs.«176626_j47467978556114_2_alg».proof.Proof.Payloads
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the second call reads, as functions of their indices into the extended reals. -/
abbrev aX (c : Dev nD) : S4x8192x1024.Idx → EReal := V c main_arg0
abbrev aWq (c : Dev nD) : S1024x1024.Idx → EReal := V c main_v4
abbrev aBq (c : Dev nD) : S1024.Idx → EReal := V c main_v5
abbrev aGate (c : Dev nD) : S4x1x1024.Idx → EReal := V c main_v7
abbrev aWo (c : Dev nD) : S1024x1024.Idx → EReal := V c main_v6
abbrev aBo (c : Dev nD) : S1024.Idx → EReal := V c main_arg4

/-- One entry of the output: the gate row of the batch, the query projection of the row, the output projection,
    the bias, the residual. -/
def outEntry (c : Dev nD) (b : Fin 4) (s : Fin 8192) (q : Fin 1024) : EReal :=
  ((∑ e : Fin 1024, (aGate V c (ix3 b (0 : Fin 1) e)
        * ((∑ d : Fin 1024, aX V c (ix3 b s d) * aWq V c (ix2 d e)) + aBq V c (ix1 e)))
      * aWo V c (ix2 e q)) + aBo V c (ix1 q)) + aX V c (ix3 b s q)

/-- The output array as a function of the entry contents. -/
def outArr (c : Dev nD) : Buf (Elt Ideal) ((c : Thread nD τ).loc main_v8) :=
  fun i => outEntry V c (i 0) (i 1) (i 2)

/-- The printed index maps of the second call, decided once over the grid: the X tile and the output tile sit at block
    (t / 16, t % 16, 0), the gate row at block (t / 16, 0, 0), the weights and biases at block 0. -/
theorem idx1 : ∀ t : Fin cfg1.N,
    win1_0.index t (0 : Fin 3) = t.val / 16 ∧ win1_0.index t (1 : Fin 3) = t.val % 16 ∧ win1_0.index t (2 : Fin 3) = 0
    ∧ win1_1.index t (0 : Fin 2) = 0 ∧ win1_1.index t (1 : Fin 2) = 0
    ∧ win1_2.index t (0 : Fin 1) = 0
    ∧ win1_3.index t (0 : Fin 3) = t.val / 16 ∧ win1_3.index t (1 : Fin 3) = 0 ∧ win1_3.index t (2 : Fin 3) = 0
    ∧ win1_4.index t (0 : Fin 2) = 0 ∧ win1_4.index t (1 : Fin 2) = 0
    ∧ win1_5.index t (0 : Fin 1) = 0
    ∧ win1_6.index t (0 : Fin 3) = t.val / 16 ∧ win1_6.index t (1 : Fin 3) = t.val % 16 ∧ win1_6.index t (2 : Fin 3) = 0 :=
  (by decide +kernel : ∀ t : Fin grid1.N, _)

/-- The batch and the tile of a grid point, and the row of the array a tile's row is. -/
def bOf (t : Fin cfg1.N) : Fin 4 := ⟨t.val / 16, by have := t.isLt; have hN : cfg1.N = 64 := N_1; omega⟩
def sOf (t : Fin cfg1.N) (p : Fin 512) : Fin 8192 := ⟨512 * (t.val % 16) + p.val, by have := p.isLt; omega⟩

/-- The X tile at a point is rows 512·(t % 16) … of batch t / 16. -/
theorem blkX (c : Dev nD) (t : Fin cfg1.N) (p : Fin 512) (d : Fin 1024) :
    (iblk1 V c 0 t : S1x512x1024.Idx → EReal) (ix3 (0 : Fin 1) p d) = aX V c (ix3 (bOf t) (sOf t p) d) := by
  obtain ⟨e0, e1, e2, -⟩ := idx1 t
  unfold iblk1
  rw [View.read_apply]
  show V c main_arg0 (((cfg1.win 0).blk t).view.emb (ix3 (0 : Fin 1) p d)) = V c main_arg0 (ix3 (bOf t) (sOf t p) d)
  refine congrArg _ ?_
  funext a; apply Fin.ext
  match a with
  | ⟨0, _⟩ => show win1_0.index t (0 : Fin 3) * 1 + 1 * 0 = t.val / 16; omega
  | ⟨1, _⟩ => show win1_0.index t (1 : Fin 3) * 512 + 1 * p.val = 512 * (t.val % 16) + p.val; omega
  | ⟨2, _⟩ => show win1_0.index t (2 : Fin 3) * 1024 + 1 * d.val = d.val; omega

/-- The query weights' window is the whole array at every point; likewise the query bias, the output weights and the
    output bias. -/
theorem blkWq (c : Dev nD) (t : Fin cfg1.N) (d e : Fin 1024) :
    (iblk1 V c 1 t : S1024x1024.Idx → EReal) (ix2 d e) = aWq V c (ix2 d e) := by
  obtain ⟨-, -, -, e0, e1, -⟩ := idx1 t
  unfold iblk1
  rw [View.read_apply]
  show V c main_v4 (((cfg1.win 1).blk t).view.emb (ix2 d e)) = V c main_v4 (ix2 d e)
  refine congrArg _ ?_
  funext a; apply Fin.ext
  match a with
  | ⟨0, _⟩ => show win1_1.index t (0 : Fin 2) * 1024 + 1 * d.val = d.val; omega
  | ⟨1, _⟩ => show win1_1.index t (1 : Fin 2) * 1024 + 1 * e.val = e.val; omega

theorem blkBq (c : Dev nD) (t : Fin cfg1.N) (e : Fin 1024) :
    (iblk1 V c 2 t : S1024.Idx → EReal) (ix1 e) = aBq V c (ix1 e) := by
  obtain ⟨-, -, -, -, -, e0, -⟩ := idx1 t
  unfold iblk1
  rw [View.read_apply]
  show V c main_v5 (((cfg1.win 2).blk t).view.emb (ix1 e)) = V c main_v5 (ix1 e)
  refine congrArg _ ?_
  funext a; apply Fin.ext
  match a with
  | ⟨0, _⟩ => show win1_2.index t (0 : Fin 1) * 1024 + 1 * e.val = e.val; omega

/-- The gate row at a point is the row of batch t / 16. -/
theorem blkGate (c : Dev nD) (t : Fin cfg1.N) (e : Fin 1024) :
    (iblk1 V c 3 t : S1x1x1024.Idx → EReal) (ix3 (0 : Fin 1) (0 : Fin 1) e) = aGate V c (ix3 (bOf t) (0 : Fin 1) e) := by
  obtain ⟨-, -, -, -, -, -, e0, e1, e2, -⟩ := idx1 t
  unfold iblk1
  rw [View.read_apply]
  show V c main_v7 (((cfg1.win 3).blk t).view.emb (ix3 (0 : Fin 1) (0 : Fin 1) e)) = V c main_v7 (ix3 (bOf t) (0 : Fin 1) e)
  refine congrArg _ ?_
  funext a; apply Fin.ext
  match a with
  | ⟨0, _⟩ => show win1_3.index t (0 : Fin 3) * 1 + 1 * 0 = t.val / 16; omega
  | ⟨1, _⟩ => show win1_3.index t (1 : Fin 3) * 1 + 1 * 0 = 0; omega
  | ⟨2, _⟩ => show win1_3.index t (2 : Fin 3) * 1024 + 1 * e.val = e.val; omega

theorem blkWo (c : Dev nD) (t : Fin cfg1.N) (e q : Fin 1024) :
    (iblk1 V c 4 t : S1024x1024.Idx → EReal) (ix2 e q) = aWo V c (ix2 e q) := by
  obtain ⟨-, -, -, -, -, -, -, -, -, e0, e1, -⟩ := idx1 t
  unfold iblk1
  rw [View.read_apply]
  show V c main_v6 (((cfg1.win 4).blk t).view.emb (ix2 e q)) = V c main_v6 (ix2 e q)
  refine congrArg _ ?_
  funext a; apply Fin.ext
  match a with
  | ⟨0, _⟩ => show win1_4.index t (0 : Fin 2) * 1024 + 1 * e.val = e.val; omega
  | ⟨1, _⟩ => show win1_4.index t (1 : Fin 2) * 1024 + 1 * q.val = q.val; omega

theorem blkBo (c : Dev nD) (t : Fin cfg1.N) (q : Fin 1024) :
    (iblk1 V c 5 t : S1024.Idx → EReal) (ix1 q) = aBo V c (ix1 q) := by
  obtain ⟨-, -, -, -, -, -, -, -, -, -, -, e0, -⟩ := idx1 t
  unfold iblk1
  rw [View.read_apply]
  show V c main_arg4 (((cfg1.win 5).blk t).view.emb (ix1 q)) = V c main_arg4 (ix1 q)
  refine congrArg _ ?_
  funext a; apply Fin.ext
  match a with
  | ⟨0, _⟩ => show win1_5.index t (0 : Fin 1) * 1024 + 1 * q.val = q.val; omega

/-- The tile a point stores, entry by entry, is the output's entry at row 512·(t % 16) + p of batch t / 16. -/
theorem tile_entry (c : Dev nD) (t : Fin cfg1.N) (p : Fin 512) (q : Fin 1024) :
    k1_pay1 (F := Ideal) (iblk1 V c 0 t) (iblk1 V c 1 t) (iblk1 V c 2 t) (iblk1 V c 3 t) (iblk1 V c 4 t) (iblk1 V c 5 t) (ix3 (0 : Fin 1) p q)
      = outEntry V c (bOf t) (sOf t p) q := by
  rw [payB_apply]
  unfold outEntry
  rw [blkBo V c t q, blkX V c t p q]
  refine congrArg (· + _) (congrArg (· + _) ?_)
  refine Finset.sum_congr rfl fun e _ => ?_
  rw [blkGate V c t e, blkBq V c t e, blkWo V c t e q]
  refine congrArg (· * _) (congrArg (_ * ·) (congrArg (· + _) ?_))
  refine Finset.sum_congr rfl fun d _ => ?_
  rw [blkX V c t p d, blkWq V c t d e]

/-- What point `t` writes back is block `t` of the output array. -/
theorem flushed6_eq (c : Dev nD) (t : Fin cfg1.N) :
    (dat1 V c).flushed 6 t = ((cfg1.win 6).blk t).view.read (Elt Ideal) (outArr V c) := by
  show (cfg1.win 6).cut (grid1.coords t) ((dat1 V c).after 6 t) = _
  rw [after1_6]
  unfold outAt1
  rw [out_tile]
  obtain ⟨-, -, -, -, -, -, -, -, -, -, -, -, e0, e1, e2⟩ := idx1 t
  funext y
  obtain ⟨p, q, rfl⟩ : ∃ (p : Fin 512) (q : Fin 1024), y = ix3 (0 : Fin 1) p q :=
    ⟨y 1, y 2, by funext a; match a with | ⟨0, _⟩ => exact Fin.ext (by have h : (y 0).val < 1 := (y 0).isLt; show (y 0).val = 0; omega) | ⟨1, _⟩ => rfl | ⟨2, _⟩ => rfl⟩
  show k1_pay1 (F := Ideal) (iblk1 V c 0 t) (iblk1 V c 1 t) (iblk1 V c 2 t) (iblk1 V c 3 t) (iblk1 V c 4 t) (iblk1 V c 5 t) (ix3 (0 : Fin 1) p q)
    = outArr V c (((cfg1.win 6).blk t).view.emb (ix3 (0 : Fin 1) p q))
  rw [tile_entry V c t p q]
  unfold outArr
  have h0 : (((cfg1.win 6).blk t).view.emb (ix3 (0 : Fin 1) p q)) 0 = bOf t := Fin.ext (by
    show win1_6.index t (0 : Fin 3) * 1 + 1 * 0 = t.val / 16; omega)
  have h1 : (((cfg1.win 6).blk t).view.emb (ix3 (0 : Fin 1) p q)) 1 = sOf t p := Fin.ext (by
    show win1_6.index t (1 : Fin 3) * 512 + 1 * p.val = 512 * (t.val % 16) + p.val; omega)
  have h2 : (((cfg1.win 6).blk t).view.emb (ix3 (0 : Fin 1) p q)) 2 = q := Fin.ext (by
    show win1_6.index t (2 : Fin 3) * 1024 + 1 * q.val = q.val; omega)
  show _ = outEntry V c ((((cfg1.win 6).blk t).view.emb (ix3 (0 : Fin 1) p q)) 0) ((((cfg1.win 6).blk t).view.emb (ix3 (0 : Fin 1) p q)) 1) ((((cfg1.win 6).blk t).view.emb (ix3 (0 : Fin 1) p q)) 2)
  rw [h0, h1, h2]

/-- An index of the output array is in point `t`'s block iff each coordinate is in the block's range on its axis. -/
theorem mem_blk6 (t : Fin cfg1.N) (i : S4x8192x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v8).slice (win1_6.rect t)).set ↔ _
  rw [View.set_slice_whole, Rect.mem_set_unit]
  exact Iff.rfl

/-- Every index of the output array lies in the block of the point 16·(batch) + (row / 512), and every point writes back. -/
theorem cover6 (i : S4x8192x1024.Idx) :
    ∃ t : Fin cfg1.N, (cfg1.win 6).flush t = true ∧ i ∈ ((cfg1.win 6).blk t).view.set := by
  have hi0 : (i 0).val < 4 := (i 0).isLt
  have hi1 : (i 1).val < 8192 := (i 1).isLt
  have hi2 : (i 2).val < 1024 := (i 2).isLt
  have hN : cfg1.N = 64 := N_1
  let t : Fin cfg1.N := ⟨16 * (i 0).val + (i 1).val / 512, by omega⟩
  have ht : t.val = 16 * (i 0).val + (i 1).val / 512 := rfl
  obtain ⟨-, -, -, -, -, -, -, -, -, -, -, -, e0, e1, e2⟩ := idx1 t
  refine ⟨t, flush1_6 t, ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 1024 ≤ (i 2).val ∧ (i 2).val < win1_6.index t (2 : Fin 3) * 1024 + 1024; omega

/-- The output array after the call: the 64 tiles fill it. -/
theorem final6 (c : Dev nD) : (dat1 V c).arrAt 6 cfg1.N = outArr V c :=
  (dat1 V c).arrAt_eq_of_cover 6 (outArr V c) (fun t _ => flushed6_eq V c t) cover6

end Cert.KernelIdeal.Val

end
-- ==== Proof.Val.Gate.lean ====
/-
  The gate array the first call leaves, entry by entry.

  The grid of the first call is 4 batches by 16 tiles of 512 positions; point number 16·b + j is tile j of
  batch b.  Over the 16 tiles of a batch the accumulator is set to zero, and every tile adds its own sum over
  its 512 positions of the rectified key column times the rectified value column.  After tile j the accumulator
  therefore holds the sum of the contributions of tiles 0, …, j of the batch, and after the last tile the
  batch's output row is one half of the sum of all 16 contributions, plus one half.  Only the last tile of a
  batch writes its row back, the 4 rows fill the [4, 1, 1024] array, and so the array ends holding, at batch b
  and column e, one half of the sum over the 16 tiles of batch b of their contributions at e, plus one half.
-/
import proofs.«176626_j47467978556114_2_alg».proof.Proof.KI.CaseVals
import proofs.«176626_j47467978556114_2_alg».proof.Proof.Payloads
import Idealize.ShloMosaic.Lib.Pipeline.Value

set_option maxRecDepth 16384

noncomputable section

namespace Cert.KernelIdeal.Val

open Cert.KernelIdeal Cert.KernelIdeal.Gen Cert.KernelIdeal.Fr Cert.KernelIdeal.Pay
open Idealize.ShloMosaic Idealize.ShloMosaic.ValueIdx Idealize.ShloMosaic.TcCoe Idealize.SL.Sem
open Idealize.ShloMosaic.Pipeline (Dat)

-- the buffers' contents when the first call is entered
variable (V : (c : Dev nD) → (b : Ref sig .tc) → Buf (Elt Ideal) ((c : Thread nD τ).loc b))

/-- What tile t adds to column e of its batch's accumulator: the contribution of its three input blocks. -/
def tileSum (c : Dev nD) (t : Fin cfg0.N) (e : Fin 1024) : EReal :=
  contrib (iblk0 V c 0 t) (iblk0 V c 1 t) (iblk0 V c 2 t) e

/-- The same at a point given by its number; zero past the grid. -/
def tileSumN (c : Dev nD) (k : ℕ) (e : Fin 1024) : EReal :=
  if h : k < cfg0.N then tileSum V c ⟨k, h⟩ e else 0

theorem tileSumN_of_lt (c : Dev nD) (k : ℕ) (h : k < cfg0.N) (e : Fin 1024) :
    tileSumN V c k e = tileSum V c ⟨k, h⟩ e := dif_pos h

/-- The pair after a point depends on the point's number only. -/
theorem outsAt0_congr (c : Dev nD) {n n' : ℕ} (h : n = n') (hn : n < cfg0.N) (hn' : n' < cfg0.N) :
    outsAt0 V c n hn = outsAt0 V c n' hn' := by
  subst h; rfl

/-- The accumulator a point off the first tile is handed: what the point before left. -/
abbrev prevAcc (c : Dev nD) (t : Fin cfg0.N) : Vec Ideal S1x1024 .f32 :=
  (outsAt0 V c (t.val - 1) (Nat.lt_of_le_of_lt (Nat.sub_le _ _) t.isLt)).2

/-! ## The three cases at a point, as payloads of the point's blocks -/

/-- First tile: the zero row, plus the tile's sum. -/
theorem acc_A (c : Dev nD) (t : Fin cfg0.N) (h0 : t.val % 16 = 0) (h1 : ¬t.val % 16 = 15) :
    (outsAt0 V c t.val t.isLt).2 = k0_pay2 (F := Ideal) (iblk0 V c 0 t) (iblk0 V c 1 t) (iblk0 V c 2 t) (k0_pay1 (F := Ideal)) := by
  rw [outsAt0_A V c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)

/-- In between: the accumulator handed over, plus the tile's sum. -/
theorem acc_B (c : Dev nD) (t : Fin cfg0.N) (h0 : ¬t.val % 16 = 0) (h1 : ¬t.val % 16 = 15) :
    (outsAt0 V c t.val t.isLt).2 = k0_pay2 (F := Ideal) (iblk0 V c 0 t) (iblk0 V c 1 t) (iblk0 V c 2 t) (prevAcc V c t) := by
  rw [outsAt0_B V c t h0 h1]
  dsimp only
  exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (prevAcc V c t)

/-- Last tile, the accumulator: as in between. -/
theorem acc_C (c : Dev nD) (t : Fin cfg0.N) (h0 : ¬t.val % 16 = 0) (h1 : t.val % 16 = 15) :
    (outsAt0 V c t.val t.isLt).2 = k0_pay2 (F := Ideal) (iblk0 V c 0 t) (iblk0 V c 1 t) (iblk0 V c 2 t) (prevAcc V c t) := by
  rw [outsAt0_C V c t h0 h1]
  dsimp only
  exact sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (prevAcc V c t)

/-- Last tile, the output row: the scaled and shifted accumulator the tile leaves. -/
theorem row_C (c : Dev nD) (t : Fin cfg0.N) (h0 : ¬t.val % 16 = 0) (h1 : t.val % 16 = 15) :
    (outsAt0 V c t.val t.isLt).1 = k0_pay3 (F := Ideal) (k0_pay2 (F := Ideal) (iblk0 V c 0 t) (iblk0 V c 1 t) (iblk0 V c 2 t) (prevAcc V c t)) := by
  rw [outsAt0_C V c t h0 h1]
  dsimp only
  exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (prevAcc V c t)

/-! ## The accumulator over a batch's tiles -/

/-- One tile's step on a column of the accumulator: what was there, plus the tile's contribution. -/
theorem step_apply (x : Vec Ideal S1x512x1024 .f32) (w : Vec Ideal S1024x2048 .bf16) (b : Vec Ideal S2048 .f32)
    (acc : Vec Ideal S1x1024 .f32) (e : Fin 1024) (s : EReal) (h : acc (ix2 (0 : Fin 1) e) = s) :
    k0_pay2 (F := Ideal) x w b acc (ix2 (0 : Fin 1) e) = s + contrib x w b e := by
  rw [pay2_apply, h]

/-- The first tile's step: the accumulator was just set to zero. -/
theorem first_apply (x : Vec Ideal S1x512x1024 .f32) (w : Vec Ideal S1024x2048 .bf16) (b : Vec Ideal S2048 .f32)
    (e : Fin 1024) :
    k0_pay2 (F := Ideal) x w b (k0_pay1 (F := Ideal)) (ix2 (0 : Fin 1) e) = contrib x w b e := by
  rw [pay2_apply, pay1_apply, zero_add]

/-- After tile j of batch b the accumulator holds, at column e, the contributions of tiles 0, …, j of the batch. -/
theorem acc_eq (c : Dev nD) (b : ℕ) (e : Fin 1024) : ∀ (j : ℕ) (hj : j < 16) (hn : 16 * b + j < cfg0.N),
    (outsAt0 V c (16 * b + j) hn).2 (ix2 (0 : Fin 1) e) = ∑ i ∈ Finset.range (j + 1), tileSumN V c (16 * b + i) e
  | 0, hj, hn => by
    have h0 : (⟨16 * b + 0, hn⟩ : Fin cfg0.N).val % 16 = 0 := by show (16 * b + 0) % 16 = 0; omega
    have h1 : ¬(⟨16 * b + 0, hn⟩ : Fin cfg0.N).val % 16 = 15 := by show ¬(16 * b + 0) % 16 = 15; omega
    rw [show (outsAt0 V c (16 * b + 0) hn).2 = _ from acc_A V c ⟨16 * b + 0, hn⟩ h0 h1,
      Finset.sum_range_one, tileSumN_of_lt V c _ hn]
    exact first_apply (iblk0 V c 0 ⟨16 * b + 0, hn⟩) (iblk0 V c 1 ⟨16 * b + 0, hn⟩) (iblk0 V c 2 ⟨16 * b + 0, hn⟩) e
  | j + 1, hj, hn => by
    have hprev : 16 * b + j < cfg0.N := by omega
    have ih := acc_eq c b e j (by omega) hprev
    have h0 : ¬(⟨16 * b + (j + 1), hn⟩ : Fin cfg0.N).val % 16 = 0 := by show ¬(16 * b + (j + 1)) % 16 = 0; omega
    have hpe : prevAcc V c ⟨16 * b + (j + 1), hn⟩ (ix2 (0 : Fin 1) e)
        = ∑ i ∈ Finset.range (j + 1), tileSumN V c (16 * b + i) e := by
      show (outsAt0 V c (16 * b + (j + 1) - 1) _).2 (ix2 (0 : Fin 1) e) = _
      rw [outsAt0_congr V c (show 16 * b + (j + 1) - 1 = 16 * b + j by omega) _ hprev]
      exact ih
    rw [Finset.sum_range_succ, tileSumN_of_lt V c _ hn]
    by_cases h1 : (⟨16 * b + (j + 1), hn⟩ : Fin cfg0.N).val % 16 = 15
    · rw [show (outsAt0 V c (16 * b + (j + 1)) hn).2 = _ from acc_C V c ⟨16 * b + (j + 1), hn⟩ h0 h1]
      exact step_apply (iblk0 V c 0 ⟨16 * b + (j + 1), hn⟩) (iblk0 V c 1 ⟨16 * b + (j + 1), hn⟩) (iblk0 V c 2 ⟨16 * b + (j + 1), hn⟩)
        (prevAcc V c ⟨16 * b + (j + 1), hn⟩) e _ hpe
    · rw [show (outsAt0 V c (16 * b + (j + 1)) hn).2 = _ from acc_B V c ⟨16 * b + (j + 1), hn⟩ h0 h1]
      exact step_apply (iblk0 V c 0 ⟨16 * b + (j + 1), hn⟩) (iblk0 V c 1 ⟨16 * b + (j + 1), hn⟩) (iblk0 V c 2 ⟨16 * b + (j + 1), hn⟩)
        (prevAcc V c ⟨16 * b + (j + 1), hn⟩) e _ hpe

/-- At a batch's last tile the output row is one half of the accumulator the tile leaves, plus one half. -/
theorem row_eq (c : Dev nD) (t : Fin cfg0.N) (h1 : t.val % 16 = 15) :
    (outsAt0 V c t.val t.isLt).1 = k0_pay3 ((outsAt0 V c t.val t.isLt).2) := by
  have h0 : ¬t.val % 16 = 0 := by omega
  rw [acc_C V c t h0 h1]
  exact row_C V c t h0 h1

/-! ## The output row a batch's last tile stores -/

/-- One entry of that row: one half of the 16 tiles' contributions at the column, plus one half. -/
theorem row_entry (c : Dev nD) (t : Fin cfg0.N) (h15 : t.val % 16 = 15) (e : Fin 1024) :
    (outsAt0 V c t.val t.isLt).1 (ix3 (0 : Fin 1) (0 : Fin 1) e)
      = Ideal.ofBits .f32 0x3F000000#32 * (∑ k ∈ Finset.range 16, tileSumN V c (16 * (t.val / 16) + k) e)
        + Ideal.ofBits .f32 0x3F000000#32 := by
  have ht : t.val = 16 * (t.val / 16) + 15 := by omega
  have hn : 16 * (t.val / 16) + 15 < cfg0.N := ht ▸ t.isLt
  rw [row_eq V c t h15, pay3_apply, outsAt0_congr V c ht t.isLt hn]
  exact congrArg (fun s => Ideal.ofBits .f32 0x3F000000#32 * s + Ideal.ofBits .f32 0x3F000000#32)
    (acc_eq V c (t.val / 16) e 15 (by omega) hn)

/-! ## The array -/

/-- The output window's block index at a point: the batch on axis 0, nothing to choose on the two others. -/
theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- The gate of batch b at column e, as the contents of the [4, 1, 1024] array: one half of the sum over the batch's
    16 tiles of their contributions at e, plus one half. -/
def gateArr (c : Dev nD) : Buf (Elt Ideal) ((c : Thread nD τ).loc main_v7) :=
  fun i => Ideal.ofBits .f32 0x3F000000#32 * (∑ k ∈ Finset.range 16, tileSumN V c (16 * (i 0).val + k) (i 2))
    + Ideal.ofBits .f32 0x3F000000#32

/-- The array read at an index whose batch and column are known. -/
theorem gateArr_apply (c : Dev nD) (i : S4x1x1024.Idx) (b : ℕ) (e : Fin 1024) (h0 : (i 0).val = b) (h2 : (i 2).val = e.val) :
    gateArr V c i = Ideal.ofBits .f32 0x3F000000#32 * (∑ k ∈ Finset.range 16, tileSumN V c (16 * b + k) e)
      + Ideal.ofBits .f32 0x3F000000#32 := by
  have e2 : e = i 2 := Fin.ext h2.symm
  subst e2
  subst h0
  rfl

/-- What a batch's last tile writes back is its block of the array. -/
theorem flushed3_eq (c : Dev nD) (t : Fin cfg0.N) (hf : (cfg0.win 3).flush t = true) :
    (dat0 V c).flushed 3 t = ((cfg0.win 3).blk t).view.read (Elt Ideal) (gateArr V c) := by
  have h15 : t.val % 16 = 15 := (flush0_3 t).mp hf
  obtain ⟨i0, i1, i2⟩ := idx3 t
  show (cfg0.win 3).cut (grid0.coords t) ((dat0 V c).after 3 t) = _
  rw [after0_3]
  funext y
  obtain ⟨e, rfl⟩ : ∃ e : Fin 1024, y = ix3 (0 : Fin 1) (0 : Fin 1) e :=
    ⟨y 2, funext fun a => by
      match a with
      | ⟨0, _⟩ => exact Subsingleton.elim (α := Fin 1) _ _
      | ⟨1, _⟩ => exact Subsingleton.elim (α := Fin 1) _ _
      | ⟨2, _⟩ => rfl⟩
  show (outsAt0 V c t.val t.isLt).1 (ix3 (0 : Fin 1) (0 : Fin 1) e)
    = gateArr V c (((cfg0.win 3).blk t).view.emb (ix3 (0 : Fin 1) (0 : Fin 1) e))
  refine (row_entry V c t h15 e).trans (gateArr_apply V c _ (t.val / 16) e ?_ ?_).symm
  · show win0_3.index t (0 : Fin 3) * 1 + 1 * 0 = t.val / 16
    rw [i0]; omega
  · show win0_3.index t (2 : Fin 3) * 1024 + 1 * e.val = e.val
    rw [i2]; omega

/-- An index of the array is in point t's block iff each coordinate is in the block's range on its axis. -/
theorem mem_blk3 (t : Fin cfg0.N) (i : S4x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v7).slice (win0_3.rect t)).set ↔ _
  rw [View.set_slice_whole, Rect.mem_set_unit]
  exact Iff.rfl

/-- The 4 rows written back fill the array, so it ends holding the gates. -/
theorem final3 (c : Dev nD) : (dat0 V c).arrAt 3 cfg0.N = gateArr V c :=
  (dat0 V c).arrAt_eq_of_cover 3 (gateArr V c) (flushed3_eq V c) fun i => by
    have hN : cfg0.N = 64 := N_0
    have hi0 : (i 0 : ℕ) < 4 := (i 0).isLt
    have hi1 : (i 1 : ℕ) < 1 := (i 1).isLt
    have hi2 : (i 2 : ℕ) < 1024 := (i 2).isLt
    have ht : 16 * (i 0 : ℕ) + 15 < cfg0.N := by rw [hN]; omega
    obtain ⟨j0, j1, j2⟩ := idx3 ⟨16 * (i 0 : ℕ) + 15, ht⟩
    refine ⟨⟨16 * (i 0 : ℕ) + 15, ht⟩, (flush0_3 _).mpr (by show (16 * (i 0 : ℕ) + 15) % 16 = 15; omega), ?_⟩
    rw [mem_blk3]
    intro a
    match a with
    | ⟨0, _⟩ =>
      show win0_3.index ⟨16 * (i 0 : ℕ) + 15, ht⟩ (0 : Fin 3) * 1 ≤ (i 0 : ℕ)
        ∧ (i 0 : ℕ) < win0_3.index ⟨16 * (i 0 : ℕ) + 15, ht⟩ (0 : Fin 3) * 1 + 1
      rw [j0]; show (16 * (i 0 : ℕ) + 15) / 16 * 1 ≤ (i 0 : ℕ) ∧ (i 0 : ℕ) < (16 * (i 0 : ℕ) + 15) / 16 * 1 + 1; omega
    | ⟨1, _⟩ =>
      show win0_3.index ⟨16 * (i 0 : ℕ) + 15, ht⟩ (1 : Fin 3) * 1 ≤ (i 1 : ℕ)
        ∧ (i 1 : ℕ) < win0_3.index ⟨16 * (i 0 : ℕ) + 15, ht⟩ (1 : Fin 3) * 1 + 1
      rw [j1]; omega
    | ⟨2, _⟩ =>
      show win0_3.index ⟨16 * (i 0 : ℕ) + 15, ht⟩ (2 : Fin 3) * 1024 ≤ (i 2 : ℕ)
        ∧ (i 2 : ℕ) < win0_3.index ⟨16 * (i 0 : ℕ) + 15, ht⟩ (2 : Fin 3) * 1024 + 1024
      rw [j2]; omega

end Cert.KernelIdeal.Val

end
-- ==== Proof.Val.BlocksHost.lean ====
/-
  What the seven host operations before the two calls leave in their result arrays, read entry by entry.

  The projection weights Wi have 3072 columns: the first 1024 project to the queries, the next 2048 to
  the keys and the values.  The host cuts Wi and the bias bi at column 1024 — the key-and-value part goes
  to the first call, the query part to the second — and changes the float format of the weights, which on
  the extended reals changes nothing.  So each result array is an argument array read at a shifted column,
  and the two arguments no host operation writes (X and bo) are as launched.
-/
import proofs.«176626_j47467978556114_2_alg».proof.Proof.KI.RunMain
import proofs.«176626_j47467978556114_2_alg».proof.Proof.Spec
import Idealize.ShloMosaic.Lib.StableHlo.Run
import Idealize.ShloMosaic.Lib.Pipeline.Value
import Idealize.ShloMosaic.Lib.ValueIdx

noncomputable section

namespace Cert.KernelIdeal.Blocks

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ) (c : Dev nD)

/-- Column n of the 2048 key-and-value columns is column 1024 + n of the 3072 projected columns. -/
def kvcol (n : Fin 2048) : Fin 3072 := ⟨1024 + n.val, by have := n.isLt; omega⟩

/-- The first 1024 of the key-and-value columns are the key columns … -/
theorem kvcol_key (e : Fin 1024) : kvcol ⟨e.val, by have := e.isLt; omega⟩ = Cert.Spec.kcol e := rfl

/-- … and the last 1024 are the value columns. -/
theorem kvcol_value (e : Fin 1024) : kvcol ⟨1024 + e.val, by have := e.isLt; omega⟩ = Cert.Spec.vcol e :=
  Fin.ext (by show 1024 + (1024 + e.val) = 2048 + e.val; omega)

/-- X is as launched when the first call is entered: no host operation writes it. -/
theorem V1_arg0 : Fr.V1 m c main_arg0 = m ((c : Thread nD τ).loc main_arg0) :=
  (Gen.V1_of m c main_arg0 (by decide)).trans rfl

/-- The bias bo is as launched: no host operation writes it. -/
theorem V1_arg4 : Fr.V1 m c main_arg4 = m ((c : Thread nD τ).loc main_arg4) :=
  (Gen.V1_of m c main_arg4 (by decide)).trans rfl

/-- The key-and-value weights: entry (d, n) is Wi(d, 1024 + n). -/
theorem V1_v1_apply (d : Fin 1024) (n : Fin 2048) :
    Fr.V1 m c main_v1 (ix2 d n) = m ((c : Thread nD τ).loc main_arg1) (ix2 d (kvcol n)) := by
  show StableHlo.after hostOps0 (fun b => m (c, b)) (Proc.devRef .tc main_v1) (ix2 d n) = _
  after_results
  refine (truncf_apply (φ := .f32) (ψ := .bf16) _ bitsLt_bf16_f32 _).trans ?_
  exact extractStridedSlice_apply _ _ _ (ix2 d n) (ix2 d (kvcol n)) (fun a => match a with
    | ⟨0, _⟩ => by show d.val = 0 + d.val; omega
    | ⟨1, _⟩ => by show 1024 + n.val = 1024 + n.val; rfl)

/-- The key-and-value bias: entry n is bi(1024 + n). -/
theorem V1_v2_apply (n : Fin 2048) :
    Fr.V1 m c main_v2 (ix1 n) = m ((c : Thread nD τ).loc main_arg2) (ix1 (kvcol n)) := by
  show StableHlo.after hostOps0 (fun b => m (c, b)) (Proc.devRef .tc main_v2) (ix1 n) = _
  after_results
  exact extractStridedSlice_apply _ _ _ (ix1 n) (ix1 (kvcol n)) (fun a => match a with
    | ⟨0, _⟩ => by show 1024 + n.val = 1024 + n.val; rfl)

/-- The query weights: entry (d, e) is Wi(d, e). -/
theorem V1_v4_apply (d : Fin 1024) (e : Fin 1024) :
    Fr.V1 m c main_v4 (ix2 d e) = m ((c : Thread nD τ).loc main_arg1) (ix2 d (Cert.Spec.qcol e)) := by
  show StableHlo.after hostOps0 (fun b => m (c, b)) (Proc.devRef .tc main_v4) (ix2 d e) = _
  after_results
  refine (truncf_apply (φ := .f32) (ψ := .bf16) _ bitsLt_bf16_f32 _).trans ?_
  exact extractStridedSlice_apply _ _ _ (ix2 d e) (ix2 d (Cert.Spec.qcol e)) (fun a => match a with
    | ⟨0, _⟩ => by show d.val = 0 + d.val; omega
    | ⟨1, _⟩ => by show e.val = 0 + e.val; omega)

/-- The query bias: entry e is bi(e). -/
theorem V1_v5_apply (e : Fin 1024) :
    Fr.V1 m c main_v5 (ix1 e) = m ((c : Thread nD τ).loc main_arg2) (ix1 (Cert.Spec.qcol e)) := by
  show StableHlo.after hostOps0 (fun b => m (c, b)) (Proc.devRef .tc main_v5) (ix1 e) = _
  after_results
  exact extractStridedSlice_apply _ _ _ (ix1 e) (ix1 (Cert.Spec.qcol e)) (fun a => match a with
    | ⟨0, _⟩ => by show e.val = 0 + e.val; omega)

/-- The output weights in the other float format are Wo itself, entry by entry. -/
theorem V1_v6 : (Fr.V1 m c main_v6 : S1024x1024.Idx → EReal) = m ((c : Thread nD τ).loc main_arg3) := by
  show StableHlo.after hostOps0 (fun b => m (c, b)) (Proc.devRef .tc main_v6) = _
  after_results
  rfl

end Cert.KernelIdeal.Blocks

end
-- ==== Proof.LibTileSum.lean ====
/-
  A sum over n·m consecutive positions, taken tile by tile: n tiles of m positions each.
-/
import Mathlib.Algebra.BigOperators.Fin
import Mathlib.Logic.Equiv.Fin.Basic

namespace Cert.LibTileSum

open Finset

/-- For a function f on the naturals with values in a commutative additive monoid, the sum over the positions
    0, …, n·m − 1 is the sum over the tiles k = 0, …, n − 1 of the sum over the positions m·k + p, p = 0, …, m − 1
    of the tile. -/
theorem sum_tiles {M : Type*} [AddCommMonoid M] (n m : ℕ) (f : ℕ → M) :
    ∑ k ∈ Finset.range n, ∑ p : Fin m, f (m * k + p.val) = ∑ s : Fin (n * m), f s.val := by
  rw [Finset.sum_range fun k => ∑ p : Fin m, f (m * k + p.val)]
  rw [← (finProdFinEquiv (m := n) (n := m)).sum_comp fun s => f s.val, Fintype.sum_prod_type]
  refine Finset.sum_congr rfl fun a _ => Finset.sum_congr rfl fun b _ => ?_
  show f (m * a.val + b.val) = f (finProdFinEquiv (a, b)).val
  rw [finProdFinEquiv_apply_val, Nat.add_comm]

end Cert.LibTileSum
-- ==== Proof.Val.Bridge.lean ====
/-
  The kernel program's result, at the ideal values, is the function of Proof/Spec.lean of the five argument arrays.

  The second call leaves in the result array, entry by entry, (Σ_e (gate(b,e) · query(b,s,e)) · Wo(e,q) + bo(q)) + X(b,s,q)
  of the buffers as it finds them (Val/Tile.lean); those buffers are the host operations' slices of Wi and bi, the
  arguments, and the first call's output row per batch. That row is ½ · (Σ over the 16 tiles of the tile's sum) + ½
  (Val/Gate.lean), a tile's sum being Σ over its 512 rows of relu(key)·relu(value); sixteen tiles of 512 rows are
  the 8192 rows of the sequence (LibTileSum.lean), so the row is the gate of the specification.
-/
import proofs.«176626_j47467978556114_2_alg».proof.Proof.Val.Tile
import proofs.«176626_j47467978556114_2_alg».proof.Proof.Val.Gate
import proofs.«176626_j47467978556114_2_alg».proof.Proof.Val.BlocksHost
import proofs.«176626_j47467978556114_2_alg».proof.Proof.LibTileSum
import proofs.«176626_j47467978556114_2_alg».proof.Proof.KI.RunMain
import proofs.«176626_j47467978556114_2_alg».proof.Proof.Spec

set_option maxRecDepth 16384

noncomputable section

namespace Cert.KernelIdeal.Val

open Cert.KernelIdeal Cert.KernelIdeal.Gen Cert.KernelIdeal.Fr Cert.KernelIdeal.Pay Cert.KernelIdeal.Blocks
open Idealize.ShloMosaic Idealize.ShloMosaic.TcCoe Idealize.ShloMosaic.ValueIdx Idealize.SL.Sem
open Idealize.ShloMosaic.Pipeline (Dat)

/-! ## The first call's blocks, read off the array -/

section Blocks0
variable (V : (c : Dev nD) → (b : Ref sig .tc) → Buf (Elt Ideal) ((c : Thread nD τ).loc b))

/-- The printed index maps of the first call's input windows, decided once over the grid. -/
theorem idx0 : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0 :=
  (by decide +kernel : ∀ t : Fin grid0.N, _)

/-- The X tile at a point of the first call is rows 512·(t % 16) … of batch t / 16. -/
theorem blk0X (c : Dev nD) (t : Fin cfg0.N) (b : Fin 4) (s : Fin 8192) (p : Fin 512) (d : Fin 1024)
    (hb : b.val = t.val / 16) (hs : s.val = 512 * (t.val % 16) + p.val) :
    (iblk0 V c 0 t : S1x512x1024.Idx → EReal) (ix3 (0 : Fin 1) p d) = (V c main_arg0 : S4x8192x1024.Idx → EReal) (ix3 b s d) := by
  obtain ⟨e0, e1, e2, -⟩ := idx0 t
  unfold iblk0
  rw [View.read_apply]
  show V c main_arg0 (((cfg0.win 0).blk t).view.emb (ix3 (0 : Fin 1) p d)) = V c main_arg0 (ix3 b s d)
  refine congrArg _ ?_
  funext a; apply Fin.ext
  match a with
  | ⟨0, _⟩ => show win0_0.index t (0 : Fin 3) * 1 + 1 * 0 = b.val; omega
  | ⟨1, _⟩ => show win0_0.index t (1 : Fin 3) * 512 + 1 * p.val = s.val; omega
  | ⟨2, _⟩ => show win0_0.index t (2 : Fin 3) * 1024 + 1 * d.val = d.val; omega

/-- The key/value weights' window is the whole array at every point, and so is the key/value bias's. -/
theorem blk0W (c : Dev nD) (t : Fin cfg0.N) (d : Fin 1024) (n : Fin 2048) :
    (iblk0 V c 1 t : S1024x2048.Idx → EReal) (ix2 d n) = (V c main_v1 : S1024x2048.Idx → EReal) (ix2 d n) := by
  obtain ⟨-, -, -, e0, e1, -⟩ := idx0 t
  unfold iblk0
  rw [View.read_apply]
  show V c main_v1 (((cfg0.win 1).blk t).view.emb (ix2 d n)) = V c main_v1 (ix2 d n)
  refine congrArg _ ?_
  funext a; apply Fin.ext
  match a with
  | ⟨0, _⟩ => show win0_1.index t (0 : Fin 2) * 1024 + 1 * d.val = d.val; omega
  | ⟨1, _⟩ => show win0_1.index t (1 : Fin 2) * 2048 + 1 * n.val = n.val; omega

theorem blk0B (c : Dev nD) (t : Fin cfg0.N) (n : Fin 2048) :
    (iblk0 V c 2 t : S2048.Idx → EReal) (ix1 n) = (V c main_v2 : S2048.Idx → EReal) (ix1 n) := by
  obtain ⟨-, -, -, -, -, e0⟩ := idx0 t
  unfold iblk0
  rw [View.read_apply]
  show V c main_v2 (((cfg0.win 2).blk t).view.emb (ix1 n)) = V c main_v2 (ix1 n)
  refine congrArg _ ?_
  funext a; apply Fin.ext
  match a with
  | ⟨0, _⟩ => show win0_2.index t (0 : Fin 1) * 2048 + 1 * n.val = n.val; omega

end Blocks0

/-! ## In terms of the argument arrays -/

variable (m : (ℓ : Loc nD τ sig) → Buf (Elt Ideal) ℓ) (ρ : Dev nD → PrngReg) (c : Dev nD)

/-- The five argument arrays at launch, as functions into the extended reals. -/
abbrev aX0 : Cert.Spec.SX.Idx → EReal := m ((c : Thread nD τ).loc main_arg0)
abbrev aWi : Cert.Spec.SWi.Idx → EReal := m ((c : Thread nD τ).loc main_arg1)
abbrev aBi : Cert.Spec.Sbi.Idx → EReal := m ((c : Thread nD τ).loc main_arg2)
abbrev aWo0 : Cert.Spec.SWo.Idx → EReal := m ((c : Thread nD τ).loc main_arg3)
abbrev aBo0 : Cert.Spec.Sbo.Idx → EReal := m ((c : Thread nD τ).loc main_arg4)

/-- The second call finds the arguments as launched, the host operations' slices as the host left them, and the first
    call's output rows. -/
theorem V2_arg0 : Fr.V2 m c main_arg0 = m ((c : Thread nD τ).loc main_arg0) :=
  (W2_arr m c 0).trans (((dat0 (Fr.V1 m) c).arrAt_in 0 rfl _).trans ((A_eq0 (Fr.V1 m) c 0).trans (V1_arg0 m c)))
theorem V2_arg4 : Fr.V2 m c main_arg4 = m ((c : Thread nD τ).loc main_arg4) :=
  (W2_of_ne m c main_arg4 (by decide)).trans (V1_arg4 m c)
theorem V2_v4 : Fr.V2 m c main_v4 = Fr.V1 m c main_v4 := W2_of_ne m c main_v4 (by decide)
theorem V2_v5 : Fr.V2 m c main_v5 = Fr.V1 m c main_v5 := W2_of_ne m c main_v5 (by decide)
theorem V2_v6 : Fr.V2 m c main_v6 = Fr.V1 m c main_v6 := W2_of_ne m c main_v6 (by decide)
theorem V2_v7 : Fr.V2 m c main_v7 = gateArr (Fr.V1 m) c := (W2_arr m c 3).trans (final3 (Fr.V1 m) c)

/-- One row's product of the rectified key and value, as a function of the row's position (zero past the sequence). -/
def kvAt (b : Fin 4) (e : Fin 1024) (s : ℕ) : EReal :=
  if h : s < 8192 then max (Cert.Spec.proj (aX0 m c) (aWi m c) (aBi m c) b ⟨s, h⟩ (Cert.Spec.kcol e)) 0
      * max (Cert.Spec.proj (aX0 m c) (aWi m c) (aBi m c) b ⟨s, h⟩ (Cert.Spec.vcol e)) 0
  else 0

/-- A tile's contribution depends on its three blocks entry by entry. -/
theorem contrib_congr (x : Vec Ideal S1x512x1024 .f32) (w : Vec Ideal S1024x2048 .bf16) (bb : Vec Ideal S2048 .f32) (e : Fin 1024)
    (X' : Fin 512 → Fin 1024 → EReal) (W' : Fin 1024 → Fin 2048 → EReal) (B' : Fin 2048 → EReal)
    (hx : ∀ p d, x (ix3 (0 : Fin 1) p d) = X' p d) (hw : ∀ d n, w (ix2 d n) = W' d n) (hb : ∀ n, bb (ix1 n) = B' n) :
    contrib x w bb e = ∑ p : Fin 512, max ((∑ d : Fin 1024, X' p d * W' d (lo e)) + B' (lo e)) 0
      * max ((∑ d : Fin 1024, X' p d * W' d (hi e)) + B' (hi e)) 0 := by
  unfold contrib
  simp only [hx, hw, hb]

/-- A tile's sum is the sum of the rows' products over the tile's 512 rows. -/
theorem tile_eq (b : Fin 4) (k : ℕ) (hk : k < 16) (e : Fin 1024) :
    tileSumN (Fr.V1 m) c (16 * b.val + k) e = ∑ p : Fin 512, kvAt m c b e (512 * k + p.val) := by
  have hN : cfg0.N = 64 := N_0
  have hb4 : b.val < 4 := b.isLt
  have hlt : 16 * b.val + k < cfg0.N := by omega
  rw [tileSumN_of_lt (Fr.V1 m) c _ hlt e]
  unfold tileSum
  refine (contrib_congr _ _ _ e
    (fun p d => aX0 m c (ix3 b (⟨512 * k + p.val, by have := p.isLt; omega⟩ : Fin 8192) d))
    (fun d n => aWi m c (ix2 d (kvcol n))) (fun n => aBi m c (ix1 (kvcol n)))
    (fun p d => (blk0X (Fr.V1 m) c ⟨16 * b.val + k, hlt⟩ b ⟨512 * k + p.val, by have := p.isLt; omega⟩ p d
        (by dsimp only; omega) (by dsimp only; omega)).trans (by rw [V1_arg0 m c]))
    (fun d n => (blk0W (Fr.V1 m) c ⟨16 * b.val + k, hlt⟩ d n).trans (V1_v1_apply m c d n))
    (fun n => (blk0B (Fr.V1 m) c ⟨16 * b.val + k, hlt⟩ n).trans (V1_v2_apply m c n))).trans ?_
  refine Finset.sum_congr rfl fun p _ => ?_
  have hp : p.val < 512 := p.isLt
  have hs : 512 * k + p.val < 8192 := by omega
  unfold kvAt
  rw [dif_pos hs]
  unfold Cert.Spec.proj
  rw [show kvcol (lo e) = Cert.Spec.kcol e from kvcol_key e, show kvcol (hi e) = Cert.Spec.vcol e from kvcol_value e]

/-- The first call's output row is the specification's gate. -/
theorem gate_eq (b : Fin 4) (e : Fin 1024) :
    gateArr (Fr.V1 m) c (ix3 b (0 : Fin 1) e) = Cert.Spec.gate (aX0 m c) (aWi m c) (aBi m c) b e := by
  unfold gateArr Cert.Spec.gate Cert.Spec.kvsum
  show Ideal.ofBits .f32 0x3F000000#32 * (∑ k ∈ Finset.range 16, tileSumN (Fr.V1 m) c (16 * b.val + k) e) + Ideal.ofBits .f32 0x3F000000#32 = _
  refine congrArg (fun z => Ideal.ofBits .f32 0x3F000000#32 * z + Ideal.ofBits .f32 0x3F000000#32) ?_
  rw [Finset.sum_congr rfl fun k hk => tile_eq m c b k (Finset.mem_range.mp hk) e]
  refine (Cert.LibTileSum.sum_tiles 16 512 (kvAt m c b e)).trans ?_
  show ∑ s : Fin 8192, kvAt m c b e s.val = _
  refine Finset.sum_congr rfl fun s _ => ?_
  unfold kvAt
  rw [dif_pos s.isLt]

/-- The second call's output array is the specification's function of the argument arrays. -/
theorem out_eq : outArr (Fr.V2 m) c = Cert.Spec.G (aX0 m c) (aWi m c) (aBi m c) (aWo0 m c) (aBo0 m c) := by
  funext i
  obtain ⟨b, s, q, rfl⟩ : ∃ (b : Fin 4) (s : Fin 8192) (q : Fin 1024), i = ix3 b s q := ⟨i 0, i 1, i 2, eq_ix3 i⟩
  show outEntry (Fr.V2 m) c b s q = Cert.Spec.outAt (aX0 m c) (aWi m c) (aBi m c) (aWo0 m c) (aBo0 m c) b s q
  unfold outEntry Cert.Spec.outAt Cert.Spec.proj aX aWq aBq aGate aWo aBo
  rw [V2_arg0 m c, V2_arg4 m c, V2_v4 m c, V2_v5 m c, V2_v6 m c, V2_v7 m c, V1_v6 m c]
  refine congrArg (· + _) (congrArg (· + _) ?_)
  refine Finset.sum_congr rfl fun e _ => ?_
  rw [gate_eq m c b e, V1_v5_apply m c e]
  refine congrArg (· * _) (congrArg (_ * ·) (congrArg (· + _) ?_))
  refine Finset.sum_congr rfl fun d _ => ?_
  rw [V1_v4_apply m c d e]

/-- THE KERNEL'S RUN, READ: every weakly fair execution terminates with the result array at the specification's
    function of the launch contents of the arguments, and the arguments unchanged. -/
theorem run : θ_run (defs (F := Ideal)) (onTc (τ := τ) (main (F := Ideal))) ⟨m, fun _ => 0, ρ⟩ (fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v8 (by decide))).trans ((W3_arr m c 6).trans ((final6 (Fr.V2 m) c).trans (out_eq m c))),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_main (F := Ideal) m ρ)

end Cert.KernelIdeal.Val

end
-- ==== Proof.lean ====
/-
  The certificate's five claims, assembled.

  The program under study computes a gated linear-attention layer in two passes over the input X[4, 8192, 1024].
  With qkv = X·Wi + bi split into thirds [Q | K | V], the first pass accumulates, per batch, the sum over the
  sequence of relu(K)·relu(V) tile by tile (16 tiles of 512 rows) and leaves gate = ½·sum + ½; the second pass
  computes (gate · Q)·Wo + bo + X tile by tile. The reference computes the same with whole-array operations.
  On the extended reals both are one function of the five argument arrays (Proof/Spec.lean): format changes are
  the identity, a matrix product into zeros is the plain sum over the contracted axis, and the tile-by-tile
  accumulation is the sum over the whole sequence because addition there is associative and commutative
  (Proof/LibTileSum.lean); no law used needs the inputs to be finite.

  The three frame claims: each kernel program's run is proved once at any float instance (Proof/K, Proof/KI: the
  seven host operations, then the two calls as regions; the first call carries its accumulator from one grid
  point to the next in the region's invariant), the reference's is its generated run. The ideal pass rewrote
  nothing, so "preserves" is trivial. The value claim joins the kernel's run, read off its two output windows
  (Proof/Val), with the reference's run read entry by entry (Proof/RefSide.lean), at the same function.
-/
import proofs.«176626_j47467978556114_2_alg».proof.Defs
import proofs.«176626_j47467978556114_2_alg».proof.Proof.Gen.Kernel
import proofs.«176626_j47467978556114_2_alg».proof.Proof.Gen.KernelIdeal
import proofs.«176626_j47467978556114_2_alg».proof.Proof.Gen.ReferenceIdeal
import proofs.«176626_j47467978556114_2_alg».proof.Proof.Gen.Pre_finite_inputs
import proofs.«176626_j47467978556114_2_alg».proof.Proof.K.RunMain
import proofs.«176626_j47467978556114_2_alg».proof.Proof.KI.RunMain
import proofs.«176626_j47467978556114_2_alg».proof.Proof.RefSide
import proofs.«176626_j47467978556114_2_alg».proof.Proof.Val.Bridge
import Idealize.ShloMosaic.Adequacy
import Idealize.ShloMosaic.Init

noncomputable section

namespace Cert.Proof

open Idealize.ShloMosaic Idealize.SL.Sem

/-- The word-level kernel program runs to the end and leaves its arguments unchanged. -/
theorem frame_k [Cert.Kernel.Facts] [Cert.Pre_finite_inputs.Facts] : Cert.frame_Kernel :=
  fun m ρ _ => Cert.Kernel.Fr.frame (F := Bits) m ρ

/-- So does its idealization. -/
theorem frame_ki [Cert.KernelIdeal.Facts] [Cert.Pre_finite_inputs.Facts] : Cert.frame_KernelIdeal :=
  fun m ρ _ => Cert.KernelIdeal.Fr.frame (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.RefSide.run m ρ)

/-- The idealization rewrote no operation. -/
theorem preserves : Cert.preserves_Kernel_KernelIdeal := trivial

/-- At the ideal values both programs end with the result array at the one function of the argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
